-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x128 .f32) (main_arg9 : FVec F S1 .f32) (main_arg10 : FVec F S1x128 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1x128 .f32 := Host.absf main_arg10
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S1x128 .f32) (main_arg9 : FVec F S1 .f32) (main_arg10 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S1x128 .f32) (main_arg9 : FVec F S1 .f32) (main_arg10 : FVec F S1x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S5000x128 : Shape := ⟨2, ![5000, 128]⟩
abbrev S1x1 : Shape := ⟨2, ![1, 1]⟩
abbrev S128x1 : Shape := ⟨2, ![128, 1]⟩
abbrev S5000x1 : Shape := ⟨2, ![5000, 1]⟩

abbrev nBuf : Space → Nat
  | .hbm => 60
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S1, .f32⟩
  | .hbm, ⟨10, _⟩ => ⟨S1x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x1, .f32⟩
  | .hbm, ⟨59, _⟩ => ⟨S1x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S1x1, .f32⟩
  | .local _ .vmem, ⟨25, _⟩ => ⟨S1x1, .f32⟩
  | .local _ .vmem, ⟨26, _⟩ => ⟨S1x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v29 : BitVec 1 := Scalar.cmpi .eq arg0 c19_i32
  let v30 : BitVec 32 := Scalar.extui v29
  let c0_i32_16 : BitVec 32 := 0#32
  let v31 : BitVec 1 := Scalar.cmpi .ne v30 c0_i32_16
  v31

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  transposes_S1x128_p1_0_S128x1 : S1x128.Transposes [1, 0] S128x1
  broadcasts_S1x1_S5000x1 : S1x1.Broadcasts S5000x1
  reduces_S5000x1_S1 : S5000x1.Reduces [0] S1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S1x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S128x1 : Shape := ⟨2, ![128, 1]⟩
abbrev S100000x1 : Shape := ⟨2, ![100000, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S1, .f32⟩
  | .hbm, ⟨10, _⟩ => ⟨S1x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S128x128, .f32⟩
  | .hbm, ⟨29, _⟩ => ⟨S100000x128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S128x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S128x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S128x1, .f32⟩
  | .hbm, ⟨77, _⟩ => ⟨S100000x1, .f32⟩
  | .hbm, ⟨78, _⟩ => ⟨S1x1, .f32⟩
  | .hbm, ⟨79, _⟩ => ⟨S100000x1, .f32⟩
  | .hbm, ⟨80, _⟩ => ⟨S100000x1, .f32⟩
  | .hbm, ⟨81, _⟩ => ⟨S128x1, .f32⟩
  | .hbm, ⟨82, _⟩ => ⟨S100000x1, .f32⟩
  | .hbm, ⟨83, _⟩ => ⟨S100000x1, .f32⟩
  | .hbm, ⟨84, _⟩ => ⟨S_, .f32⟩
  | .hbm, ⟨85, _⟩ => ⟨S1, .f32⟩
  | .hbm, ⟨86, _⟩ => ⟨S1x1, .f32⟩
  | .hbm, ⟨87, _⟩ => ⟨S_, .f32⟩
  | .hbm, ⟨88, _⟩ => ⟨S1x1, .f32⟩
  | .hbm, ⟨89, _⟩ => ⟨S1x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_c_1 : Ref sig .tc := ⟨.hbm, 39, rfl⟩
abbrev main_v23 : Ref sig .tc := ⟨.hbm, 40, rfl⟩
abbrev main_v24 : Ref sig .tc := ⟨.hbm, 41, rfl⟩
abbrev main_c_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call1_cst : Ref sig .tc := ⟨.hbm, 60, rfl⟩
abbrev main_call1_v0 : Ref sig .tc := ⟨.hbm, 61, rfl⟩
abbrev main_v41 : Ref sig .tc := ⟨.hbm, 62, rfl⟩
abbrev main_c_4 : Ref sig .tc := ⟨.hbm, 63, rfl⟩
abbrev main_v42 : Ref sig .tc := ⟨.hbm, 64, rfl⟩
abbrev main_v43 : Ref sig .tc := ⟨.hbm, 65, rfl⟩
abbrev main_c_5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_6 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_7 : Ref sig .tc := ⟨.hbm, 84, rfl⟩
abbrev main_v60 : Ref sig .tc := ⟨.hbm, 85, rfl⟩
abbrev main_v61 : Ref sig .tc := ⟨.hbm, 86, rfl⟩
abbrev main_cst_8 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S1_d0 : S100000x1.ReducesTo [0] S1
  h_S_ : 0 < S_.numel
  bcast_S_S1x1 : S_.BroadcastsInDim S1x1 (![] : Fin 0 → Fin S1x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.BitsAffine0.lean ====
/-
  The affine layer's kernel (pallas_call 0) at a grid point, as the pipeline runs it: from the blocks of its five
  input windows — a tile of 5000 rows of the aggregated features and of the node features, the two 128 × 128 weight
  matrices whole, the bias row whole — the body leaves in the output window's buffer one store of the whole tile,
  max (agg · W_relᵀ + x · W_rootᵀ + bias, 0). Everything is stated at a parameter V: what the core's arrays hold when
  the region is entered.
-/
import proofs.«115767_j86157043958238_1_alg».proof.Proof.Gen.Kernel.Launch
import proofs.«115767_j86157043958238_1_alg».proof.Proof.Gen.Kernel.Skeleton
import proofs.«115767_j86157043958238_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not the pipeline fetched it there:
    an unfetched input's block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not the pipeline fetched it there:
    an unfetched input's block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not the pipeline fetched it there:
    an unfetched input's block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether or not the pipeline fetched it there:
    an unfetched input's block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether or not the pipeline fetched it there:
    an unfetched input's block index has not moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole buffer -/

abbrev r0_rows : Rect S5000x128 := Rect.unit (s := S5000x128) ![0, 0] S5000x128.size inb_S5000x128_S5000x128_0_0
abbrev r0_sq : Rect S128x128 := Rect.unit (s := S128x128) ![0, 0] S128x128.size inb_S128x128_S128x128_0_0
abbrev r0_row : Rect S1x128 := Rect.unit (s := S1x128) ![0, 0] S1x128.size inb_S1x128_S1x128_0_0

/-- The output tile after the body, from the five input blocks: its one store. -/
def out0_5 (x0 : Vec F S5000x128 .f32) (x1 : Vec F S5000x128 .f32) (x2 : Vec F S128x128 .f32) (x3 : Vec F S128x128 .f32) (x4 : Vec F S1x128 .f32) : Vec F S5000x128 .f32 :=
  View.canon [⟨r0_rows, k0_pay1 (View.ld x0 r0_rows) (View.ld x1 r0_rows) (View.ld x2 r0_sq) (View.ld x3 r0_sq) (View.ld x4 r0_row)⟩]

/-- The one store covers the tile. -/
theorem cover0_5 (p0 : Vec F S5000x128 .f32) (y : S5000x128.Idx) :
    ∃ pc ∈ ([⟨r0_rows, p0⟩] : List (View.Piece (Elt F) S5000x128 .f32)), y ∈ pc.1.set :=
  View.cover_of_tiled [⟨r0_rows, p0⟩] S5000x128.size (by rfl) y

/-! ## The body's triple -/

set_option maxHeartbeats 4000000 in
/-- On whole staging memrefs, the inputs' at read contents x0 … x4 and the output's at anything, the body runs to
    its return holding the inputs' as they were and the output's at out0_5 of them. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core c: the arrays as the region finds them; after the body at point t each
    input's buffer at its block and the output's at out0_5 of the input blocks; the invariant the scoped buffers the
    pipeline does not stage and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.BitsAffine1.lean ====
/-
  The affine layer's kernel (pallas_call 1) at a grid point, as the pipeline runs it: from the blocks of its five
  input windows — a tile of 5000 rows of the aggregated features and of the node features, the two 128 × 128 weight
  matrices whole, the bias row whole — the body leaves in the output window's buffer one store of the whole tile,
  max (agg · W_relᵀ + x · W_rootᵀ + bias, 0). Everything is stated at a parameter V: what the core's arrays hold when
  the region is entered.
-/
import proofs.«115767_j86157043958238_1_alg».proof.Proof.Gen.Kernel.Launch
import proofs.«115767_j86157043958238_1_alg».proof.Proof.Gen.Kernel.Skeleton
import proofs.«115767_j86157043958238_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not the pipeline fetched it there:
    an unfetched input's block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether or not the pipeline fetched it there:
    an unfetched input's block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether or not the pipeline fetched it there:
    an unfetched input's block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether or not the pipeline fetched it there:
    an unfetched input's block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether or not the pipeline fetched it there:
    an unfetched input's block index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole buffer -/

abbrev r1_rows : Rect S5000x128 := Rect.unit (s := S5000x128) ![0, 0] S5000x128.size inb_S5000x128_S5000x128_0_0
abbrev r1_sq : Rect S128x128 := Rect.unit (s := S128x128) ![0, 0] S128x128.size inb_S128x128_S128x128_0_0
abbrev r1_row : Rect S1x128 := Rect.unit (s := S1x128) ![0, 0] S1x128.size inb_S1x128_S1x128_0_0

/-- The output tile after the body, from the five input blocks: its one store. -/
def out1_5 (x0 : Vec F S5000x128 .f32) (x1 : Vec F S5000x128 .f32) (x2 : Vec F S128x128 .f32) (x3 : Vec F S128x128 .f32) (x4 : Vec F S1x128 .f32) : Vec F S5000x128 .f32 :=
  View.canon [⟨r1_rows, k1_pay1 (View.ld x0 r1_rows) (View.ld x1 r1_rows) (View.ld x2 r1_sq) (View.ld x3 r1_sq) (View.ld x4 r1_row)⟩]

/-- The one store covers the tile. -/
theorem cover1_5 (p0 : Vec F S5000x128 .f32) (y : S5000x128.Idx) :
    ∃ pc ∈ ([⟨r1_rows, p0⟩] : List (View.Piece (Elt F) S5000x128 .f32)), y ∈ pc.1.set :=
  View.cover_of_tiled [⟨r1_rows, p0⟩] S5000x128.size (by rfl) y

/-! ## The body's triple -/

set_option maxHeartbeats 4000000 in
/-- On whole staging memrefs, the inputs' at read contents x0 … x4 and the output's at anything, the body runs to
    its return holding the inputs' as they were and the output's at out1_5 of them. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core c: the arrays as the region finds them; after the body at point t each
    input's buffer at its block and the output's at out1_5 of the input blocks; the invariant the scoped buffers the
    pipeline does not stage and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.BitsPoolRuns.lean ====
/-
  The pooling kernel (pallas_call 2): what its three kinds of grid point share. The body keeps a running total in a
  1 × 1 scratch: the first point resets it to zero, every point adds the sum of its tile's scores, and the last point
  multiplies the total by 1/100000 and stores it in the 1 × 1 output — which no other point touches. So a point is in
  one of three cases, decided by its position: first (and not last), neither, last (and not first). Here: the windows'
  blocks at a parameter V (the core's arrays when the region is entered), the two conditions in closed form, where the
  output window is idle, the staging and scratch memrefs, and the region's invariant with the scratch made explicit.
-/
import proofs.«115767_j86157043958238_1_alg».proof.Proof.Gen.Kernel.Launch
import proofs.«115767_j86157043958238_1_alg».proof.Proof.Gen.Kernel.Skeleton
import proofs.«115767_j86157043958238_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether or not the pipeline fetched it there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether or not the pipeline fetched it there. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether or not the pipeline fetched it there. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether or not the pipeline fetched it there. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether or not the pipeline fetched it there. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- "This is the first point", as the body computes it from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)

/-- "This is the last point". -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- At a point that is not the last the body stores nothing into the output window, -/
theorem idleAt2_5 : ∀ t : Fin cfg2.N, ¬cond2_1 (grid2.coords t) → cfg2.idle 5 (grid2.coords t) = true := by decide +kernel
/-- and the pipeline does not write its block back there. -/
theorem noFlush2_5 : ∀ t : Fin cfg2.N, ¬cond2_1 (grid2.coords t) → (cfg2.win 5).flush t = false := by decide +kernel
/-- At the last point the output window is live. -/
theorem liveAt2_5 : ∀ t : Fin cfg2.N, cond2_1 (grid2.coords t) → cfg2.idle 5 (grid2.coords t) = false := by decide +kernel

/-! ## The memrefs the body is called with -/

/-- One staging buffer of the output window, through which its contents are stated. -/
abbrev VO2_5 : View sig .tc .vmem S1x1 .f32 := (Memref.whole cc2_stg5_0 : Memref sig .tc .vmem S1x1 .f32).view
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
/-- The scratch that carries the running total: a whole scoped buffer of the kernel's own. -/
abbrev scM2_0 : Memref sig .tc .vmem S1x1 .f32 := Memref.whole cc2_scratch0
abbrev VS2_0 : View sig .tc .vmem S1x1 .f32 := scM2_0.view

/-! ## The invariant, with the scratch made explicit -/

/-- The scoped buffers the pipeline does not stage: the other two kernels' eighteen staging buffers, each at some
    contents, and the scratch at what S says of it. -/
def scoped2 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ S)

/-- The region's plain invariant: the scoped rest, with the scratch at anything, and the generator register. -/
theorem PhiA2_eq (c : Dev nD) :
    (Pipeline.ΦA spec2 c : sProp 𝕄)
      = iprop(scoped2 (F := F) c (iprop(∃ d, owns (c : Thread nD τ) scM2_0 fullShare d)) ∗ (∃ r, prngReg c r)) := by
  unfold Pipeline.ΦA scoped2; rw [scopedRest2_eq]; simp only [scM2_0, owns_whole]; try rfl

end Cert.Kernel.Fr

end
-- ==== Proof.BitsPoolRunA.lean ====
/-
  The pooling kernel's whole body run at the first point (the total is reset, then the tile's sum added; the output is left alone): on whole staging memrefs, the inputs' at their contents, the output's at contents handed back untouched, the scratch at anything, the body runs to its return holding the inputs' as they were and the scratch with the pieces it stored written — the pieces are the witness the run finds.
-/
import proofs.«115767_j86157043958238_1_alg».proof.Proof.BitsPoolRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i)
    (x0 : Vec F S5000x128 .f32) (x1 : Vec F S5000x128 .f32) (x2 : Vec F S1x128 .f32) (x3 : Vec F S1x128 .f32) (x4 : Vec F S1x1 .f32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg1 harg1 arg2 harg2 arg3 harg3 arg4 harg4 arg5 harg5 arg6 harg6 arg7 harg7) K } := by
  refine ⟨[], ?_, fun xi5 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Fr

end
-- ==== Proof.BitsPoolRunB.lean ====
/-
  The pooling kernel's whole body run at a point that is neither first nor last (the tile's sum is added to the total; the output is left alone): on whole staging memrefs, the inputs' at their contents, the output's at contents handed back untouched, the scratch at what the point before left, the body runs to its return holding the inputs' as they were and the scratch with the pieces it stored written — the pieces are the witness the run finds.
-/
import proofs.«115767_j86157043958238_1_alg».proof.Proof.BitsPoolRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i)
    (x0 : Vec F S5000x128 .f32) (x1 : Vec F S5000x128 .f32) (x2 : Vec F S1x128 .f32) (x3 : Vec F S1x128 .f32) (x4 : Vec F S1x1 .f32) (xs0 : Vec F S1x1 .f32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg1 harg1 arg2 harg2 arg3 harg3 arg4 harg4 arg5 harg5 arg6 harg6 arg7 harg7) K } := by
  refine ⟨[], ?_, fun xi5 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.Kernel.Fr

end
-- ==== Proof.BitsPoolRunC.lean ====
/-
  The pooling kernel's whole body run at the last point (the tile's sum is added to the total, and the total times 1/100000 is stored in the output): on whole staging memrefs, the inputs' at their contents, the output's at anything, the scratch at what the point before left, the body runs to its return holding the inputs' as they were and the scratch and the output with the pieces it stored written — the pieces are the witness the run finds.
-/
import proofs.«115767_j86157043958238_1_alg».proof.Proof.BitsPoolRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 : Vec F S5000x128 .f32) (x1 : Vec F S5000x128 .f32) (x2 : Vec F S1x128 .f32) (x3 : Vec F S1x128 .f32) (x4 : Vec F S1x1 .f32) (xs0 : Vec F S1x1 .f32) :
    Σ' (L5 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg1 harg1 arg2 harg2 arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Fr

end
-- ==== Proof.BitsPool.lean ====
/-
  The pooling kernel (pallas_call 2) as a pipeline body with a carried total. What each case leaves in the scratch
  and in the output (the runs' pieces read back), what the buffers hold point by point (outsAt2: the first point, then
  each later point over what the point before left in the scratch), the region's invariant (before the first point
  the scratch holds anything; afterwards it holds the running total the point before left), the proof data, and the
  body obligation at a generic point. Everything at a parameter V: the core's arrays when the region is entered.
-/
import proofs.«115767_j86157043958238_1_alg».proof.Proof.BitsPoolRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A stores nothing into the output (the window is idle there and not written back): a placeholder nothing consults. -/
def out2_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i)
    (x0 : Vec F S5000x128 .f32) (x1 : Vec F S5000x128 .f32) (x2 : Vec F S1x128 .f32) (x3 : Vec F S1x128 .f32) (x4 : Vec F S1x1 .f32) : Vec F S1x1 .f32 :=
  VO2_5.read (Elt F) (VO2_5.writes (Elt F) VO2_5.junk (kernelRun2_A c i arg1 harg1 arg2 harg2 arg3 harg3 arg4 harg4 arg5 harg5 arg6 harg6 arg7 harg7 hc0 hc1 x0 x1 x2 x3 x4).1)

/-- Case A's stores into the scratch cover it. -/
theorem scover2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i)
    (x0 : Vec F S5000x128 .f32) (x1 : Vec F S5000x128 .f32) (x2 : Vec F S1x128 .f32) (x3 : Vec F S1x128 .f32) (x4 : Vec F S1x1 .f32) (y : S1x1.Idx) :
    ∃ pc ∈ (kernelRun2_A c i arg1 harg1 arg2 harg2 arg3 harg3 arg4 harg4 arg5 harg5 arg6 harg6 arg7 harg7 hc0 hc1 x0 x1 x2 x3 x4).2.1, y ∈ pc.1.set :=
  View.cover_of_tiledL (kernelRun2_A c i arg1 harg1 arg2 harg2 arg3 harg3 arg4 harg4 arg5 harg5 arg6 harg6 arg7 harg7 hc0 hc1 x0 x1 x2 x3 x4).2.1 S1x1.size (by sl_kernel_rfl) y

/-- What case A leaves in the scratch: the running total after the point. -/
def sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i)
    (x0 : Vec F S5000x128 .f32) (x1 : Vec F S5000x128 .f32) (x2 : Vec F S1x128 .f32) (x3 : Vec F S1x128 .f32) (x4 : Vec F S1x1 .f32) : Vec F S1x1 .f32 :=
  VS2_0.read (Elt F) (VS2_0.writes (Elt F) VS2_0.junk (kernelRun2_A c i arg1 harg1 arg2 harg2 arg3 harg3 arg4 harg4 arg5 harg5 arg6 harg6 arg7 harg7 hc0 hc1 x0 x1 x2 x3 x4).2.1)

/-- Case B stores nothing into the output (the window is idle there and not written back): a placeholder nothing consults. -/
def out2_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i)
    (x0 : Vec F S5000x128 .f32) (x1 : Vec F S5000x128 .f32) (x2 : Vec F S1x128 .f32) (x3 : Vec F S1x128 .f32) (x4 : Vec F S1x1 .f32) (xs0 : Vec F S1x1 .f32) : Vec F S1x1 .f32 :=
  VO2_5.read (Elt F) (VO2_5.writes (Elt F) VO2_5.junk (kernelRun2_B c i arg1 harg1 arg2 harg2 arg3 harg3 arg4 harg4 arg5 harg5 arg6 harg6 arg7 harg7 hc0 hc1 x0 x1 x2 x3 x4 xs0).1)

/-- Case B's stores into the scratch cover it. -/
theorem scover2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i)
    (x0 : Vec F S5000x128 .f32) (x1 : Vec F S5000x128 .f32) (x2 : Vec F S1x128 .f32) (x3 : Vec F S1x128 .f32) (x4 : Vec F S1x1 .f32) (xs0 : Vec F S1x1 .f32) (y : S1x1.Idx) :
    ∃ pc ∈ (kernelRun2_B c i arg1 harg1 arg2 harg2 arg3 harg3 arg4 harg4 arg5 harg5 arg6 harg6 arg7 harg7 hc0 hc1 x0 x1 x2 x3 x4 xs0).2.1, y ∈ pc.1.set :=
  View.cover_of_tiledL (kernelRun2_B c i arg1 harg1 arg2 harg2 arg3 harg3 arg4 harg4 arg5 harg5 arg6 harg6 arg7 harg7 hc0 hc1 x0 x1 x2 x3 x4 xs0).2.1 S1x1.size (by sl_kernel_rfl) y

/-- What case B leaves in the scratch: the running total after the point. -/
def sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i)
    (x0 : Vec F S5000x128 .f32) (x1 : Vec F S5000x128 .f32) (x2 : Vec F S1x128 .f32) (x3 : Vec F S1x128 .f32) (x4 : Vec F S1x1 .f32) (xs0 : Vec F S1x1 .f32) : Vec F S1x1 .f32 :=
  VS2_0.read (Elt F) (VS2_0.writes (Elt F) VS2_0.junk (kernelRun2_B c i arg1 harg1 arg2 harg2 arg3 harg3 arg4 harg4 arg5 harg5 arg6 harg6 arg7 harg7 hc0 hc1 x0 x1 x2 x3 x4 xs0).2.1)

/-- At the last point the one store into the output covers it. -/
theorem cover2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 : Vec F S5000x128 .f32) (x1 : Vec F S5000x128 .f32) (x2 : Vec F S1x128 .f32) (x3 : Vec F S1x128 .f32) (x4 : Vec F S1x1 .f32) (xs0 : Vec F S1x1 .f32) (y : S1x1.Idx) :
    ∃ pc ∈ (kernelRun2_C c i arg1 harg1 arg2 harg2 arg3 harg3 arg4 harg4 arg5 harg5 arg6 harg6 arg7 harg7 hc0 hc1 x0 x1 x2 x3 x4 xs0).1, y ∈ pc.1.set :=
  View.cover_of_tiledL (kernelRun2_C c i arg1 harg1 arg2 harg2 arg3 harg3 arg4 harg4 arg5 harg5 arg6 harg6 arg7 harg7 hc0 hc1 x0 x1 x2 x3 x4 xs0).1 S1x1.size (by sl_kernel_rfl) y

/-- What the last point leaves in the output's staging buffer. -/
def out2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 : Vec F S5000x128 .f32) (x1 : Vec F S5000x128 .f32) (x2 : Vec F S1x128 .f32) (x3 : Vec F S1x128 .f32) (x4 : Vec F S1x1 .f32) (xs0 : Vec F S1x1 .f32) : Vec F S1x1 .f32 :=
  VO2_5.read (Elt F) (VO2_5.writes (Elt F) VO2_5.junk (kernelRun2_C c i arg1 harg1 arg2 harg2 arg3 harg3 arg4 harg4 arg5 harg5 arg6 harg6 arg7 harg7 hc0 hc1 x0 x1 x2 x3 x4 xs0).1)

/-- Case C's stores into the scratch cover it. -/
theorem scover2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 : Vec F S5000x128 .f32) (x1 : Vec F S5000x128 .f32) (x2 : Vec F S1x128 .f32) (x3 : Vec F S1x128 .f32) (x4 : Vec F S1x1 .f32) (xs0 : Vec F S1x1 .f32) (y : S1x1.Idx) :
    ∃ pc ∈ (kernelRun2_C c i arg1 harg1 arg2 harg2 arg3 harg3 arg4 harg4 arg5 harg5 arg6 harg6 arg7 harg7 hc0 hc1 x0 x1 x2 x3 x4 xs0).2.1, y ∈ pc.1.set :=
  View.cover_of_tiledL (kernelRun2_C c i arg1 harg1 arg2 harg2 arg3 harg3 arg4 harg4 arg5 harg5 arg6 harg6 arg7 harg7 hc0 hc1 x0 x1 x2 x3 x4 xs0).2.1 S1x1.size (by sl_kernel_rfl) y

/-- What case C leaves in the scratch: the running total after the point. -/
def sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 : Vec F S5000x128 .f32) (x1 : Vec F S5000x128 .f32) (x2 : Vec F S1x128 .f32) (x3 : Vec F S1x128 .f32) (x4 : Vec F S1x1 .f32) (xs0 : Vec F S1x1 .f32) : Vec F S1x1 .f32 :=
  VS2_0.read (Elt F) (VS2_0.writes (Elt F) VS2_0.junk (kernelRun2_C c i arg1 harg1 arg2 harg2 arg3 harg3 arg4 harg4 arg5 harg5 arg6 harg6 arg7 harg7 hc0 hc1 x0 x1 x2 x3 x4 xs0).2.1)

variable (V : (c : Dev nD) → (b : Ref sig .tc) → Buf (Elt F) ((c : Thread nD τ).loc b))

/-! ## What the output's buffer and the scratch hold after each point -/

/-- After the body at position n: (the output's staging buffer, the scratch). The first point runs case A; a later
    point runs case C if it is the last and case B otherwise, over the total the point before left in the scratch. -/
def outsAt2 (c : Dev nD) : (n : ℕ) → n < cfg2.N → Vec F S1x1 .f32 × Vec F S1x1 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 20 = 0 then
      False.elim (by have hN : n + 1 < 20 := lt_of_lt_of_eq hn (show cfg2.N = 20 from N_2); omega)
    else
      if h1 : (n + 1) % 20 = 19 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

/-- outsAt2 at the first point. -/
theorem outsAt2_A (c : Dev nD) (t : Fin cfg2.N) (h0 : t.val % 20 = 0) (h1 : ¬t.val % 20 = 19) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (by exfalso; have hN : n + 1 < 20 := lt_of_lt_of_eq hn (show cfg2.N = 20 from N_2); (try dsimp only at h0); omega)

/-- outsAt2 at a point that is neither first nor last: over what the point before left. -/
theorem outsAt2_B (c : Dev nD) (t : Fin cfg2.N) (h0 : ¬t.val % 20 = 0) (h1 : ¬t.val % 20 = 19) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- outsAt2 at the last point: over what the point before left. -/
theorem outsAt2_C (c : Dev nD) (t : Fin cfg2.N) (h0 : ¬t.val % 20 = 0) (h1 : t.val % 20 = 19) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: at 0 the region's plain invariant (the scratch at anything); afterwards the scoped rest with
    the scratch at the running total the point before left, and the generator register. -/
def PhiS2 (c : Dev nD) : (n : ℕ) → n ≤ cfg2.N → sProp 𝕄
  | 0, _ => Pipeline.ΦA spec2 c
  | n + 1, hn => iprop(scoped2 (F := F) c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(scoped2 (F := F) c (owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(scoped2 (F := F) c (owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of pipeline 2 on core c: the arrays as the region finds them; after the body at point t each
    input's buffer at its block and the output's at outsAt2's first component; the invariant PhiS2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point: the inputs' memrefs hold their blocks; the point's position says which case it is in; the
    invariant hands the body the scratch at the total the point before left (at anything at the first point) and takes
    it back at this point's total; the other scoped buffers, the generator register and the core's dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [show (dat2 V c).leavesExact 4 t = owns (c : Thread nD τ) (ms2_4 t) fullShare ((dat2 V c).after 4 t) from by
      unfold Dat.leavesExact; rw [liveAt2_4 t], after2_4]
  by_cases h0 : t.val % 20 = 0
  · have h1 : ¬t.val % 20 = 19 := by omega
    rw [Dat.leavesExact_idle (dat2 V c) 5 t (idleAt2_5 t (fun h => h1 ((hcond2_1 t).mp h))) (noFlush2_5 t (fun h => h1 ((hcond2_1 t).mp h)))]
    rw [outsAt2_A V c t h0 h1]
    unfold sout2_A_0; (try dsimp only)
    have hz : t.val = 0 := by omega
    rw [PhiS2_castSucc V c t, PhiS2_zero V c _ _ hz, PhiA2_eq]; unfold scoped2
    iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HR0 HR1 HR2 HR3 HR4 HR5 HR6 HR7 HR8 HR9 HR10 HR11 HR12 HR13 HR14 HR15 HR16 HR17 HS0 Hg]
    · isplitl [HR0 HR1 HR2 HR3 HR4 HR5 HR6 HR7 HR8 HR9 HR10 HR11 HR12 HR13 HR14 HR15 HR16 HR17 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        unfold owns; iexists _; isplitr
        swap; · iexact HS0
        ipureintro; exact View.read_writes_of_cover _ _ _ _ _ (scover2_A_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val % 20 = 19
    ·
      rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C_5 sout2_C_0; (try dsimp only)
      have hz : t.val ≠ 0 := by omega
      rw [PhiS2_castSucc V c t, PhiS2_pos V c _ _ hz]; unfold scoped2
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover2_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _)
    ·
      rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B_0; (try dsimp only)
      have hz : t.val ≠ 0 := by omega
      rw [PhiS2_castSucc V c t, PhiS2_pos V c _ _ hz]; unfold scoped2
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover2_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the plain one back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]; unfold scoped2
  iintro ⟨⟨HR0, HR1, HR2, HR3, HR4, HR5, HR6, HR7, HR8, HR9, HR10, HR11, HR12, HR13, HR14, HR15, HR16, HR17, HS0⟩, Hg⟩
  isplitl [HR0 HR1 HR2 HR3 HR4 HR5 HR6 HR7 HR8 HR9 HR10 HR11 HR12 HR13 HR14 HR15 HR16 HR17 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    iexists _; iexact HS0
  iexact Hg

theorem hout2 (c : Dev nD) : (dat2 V c).Φ (Fin.last cfg2.N) ⊢ Pipeline.ΦA spec2 c :=
  Phi_out2 V c _ (by rw [Fin.val_last]; have : cfg2.N = 20 := N_2; omega)

end Cert.Kernel.Fr

end
-- ==== Proof.BitsRun.lean ====
/-
  The whole run of @main: three stretches of host operations and three kernel regions in turn. The contents of the
  core's buffers at each boundary are a fold from the launch memory — a host stretch applies its operations, a region
  puts its output array at what its write-backs leave and keeps every other buffer —; each region is entered from the
  contents the stretch before it leaves, with its proof data stated at those contents. Every weakly fair execution
  terminates, and in the final memory every unscoped buffer holds the last boundary's contents: the arguments as
  launched (no stretch and no region writes one), the result array at what the pooling region leaves.
-/
import proofs.«115767_j86157043958238_1_alg».proof.Proof.BitsAffine0
import proofs.«115767_j86157043958238_1_alg».proof.Proof.BitsAffine1
import proofs.«115767_j86157043958238_1_alg».proof.Proof.BitsPool
import proofs.«115767_j86157043958238_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 (c : Dev nD) : Valuation τ sig (Elt F) := fun b => m (c, b)
/-- After the first host stretch (region 0's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b

/-- At region 1's exit: its arrays at what the pipeline leaves (the inputs as entered, the output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (region 2's entry). -/
abbrev W5 (c : Dev nD) : Valuation τ sig (Elt F) := StableHlo.after hostOps2 (W4 m c)
abbrev V5 : (c : Dev nD) → (b : Ref sig .tc) → Buf (Elt F) ((c : Thread nD τ).loc b) := fun c b => W5 m c b

/-- At region 2's exit: its arrays at what the pipeline leaves (the inputs as entered, the output's write-backs
    folded), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state "every unscoped buffer at the boundary's contents, the generator register at some
    state, nothing owed": its arrays are split out of the unscoped buffers on entry and put back at the exit contents;
    the generator register goes into the region's invariant and comes out; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers on entry and put back at the exit contents;
    the generator register goes into the region's invariant and comes out; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays are split out of the unscoped buffers on entry and put back at the exit contents;
    the generator register goes into the region's invariant and comes out; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (V5 m) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (V5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and in every final memory every unscoped buffer of every core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## What no segment writes -/

/-- A region's boundary keeps every array but its output: an input window's array by the library's reading of an
    input's write-backs (there are none), an array no window stages by the fold itself. -/
theorem W2_keep (c : Dev nD) (b : Ref sig .tc) (hb : b ≠ main_v15) : W2 m c (Proc.devRef .tc b) = W1 m c (Proc.devRef .tc b) := by
  by_cases h : ∃ w, Pipeline.arrRef spec0 w = b
  · obtain ⟨w, rfl⟩ := h
    fin_cases w
    · exact (W2_arr m c 0).trans (((dat0 (V1 m) c).arrAt_in 0 rfl _).trans (A_eq0 (V1 m) c 0))
    · exact (W2_arr m c 1).trans (((dat0 (V1 m) c).arrAt_in 1 rfl _).trans (A_eq0 (V1 m) c 1))
    · exact (W2_arr m c 2).trans (((dat0 (V1 m) c).arrAt_in 2 rfl _).trans (A_eq0 (V1 m) c 2))
    · exact (W2_arr m c 3).trans (((dat0 (V1 m) c).arrAt_in 3 rfl _).trans (A_eq0 (V1 m) c 3))
    · exact (W2_arr m c 4).trans (((dat0 (V1 m) c).arrAt_in 4 rfl _).trans (A_eq0 (V1 m) c 4))
    · exact absurd rfl hb
  · exact W2_of_ne m c b fun w e => h ⟨w, e⟩
theorem W4_keep (c : Dev nD) (b : Ref sig .tc) (hb : b ≠ main_v27) : W4 m c (Proc.devRef .tc b) = W3 m c (Proc.devRef .tc b) := by
  by_cases h : ∃ w, Pipeline.arrRef spec1 w = b
  · obtain ⟨w, rfl⟩ := h
    fin_cases w
    · exact (W4_arr m c 0).trans (((dat1 (V3 m) c).arrAt_in 0 rfl _).trans (A_eq1 (V3 m) c 0))
    · exact (W4_arr m c 1).trans (((dat1 (V3 m) c).arrAt_in 1 rfl _).trans (A_eq1 (V3 m) c 1))
    · exact (W4_arr m c 2).trans (((dat1 (V3 m) c).arrAt_in 2 rfl _).trans (A_eq1 (V3 m) c 2))
    · exact (W4_arr m c 3).trans (((dat1 (V3 m) c).arrAt_in 3 rfl _).trans (A_eq1 (V3 m) c 3))
    · exact (W4_arr m c 4).trans (((dat1 (V3 m) c).arrAt_in 4 rfl _).trans (A_eq1 (V3 m) c 4))
    · exact absurd rfl hb
  · exact W4_of_ne m c b fun w e => h ⟨w, e⟩
theorem W6_keep (c : Dev nD) (b : Ref sig .tc) (hb : b ≠ main_v39) : W6 m c (Proc.devRef .tc b) = W5 m c (Proc.devRef .tc b) := by
  by_cases h : ∃ w, Pipeline.arrRef spec2 w = b
  · obtain ⟨w, rfl⟩ := h
    fin_cases w
    · exact (W6_arr m c 0).trans (((dat2 (V5 m) c).arrAt_in 0 rfl _).trans (A_eq2 (V5 m) c 0))
    · exact (W6_arr m c 1).trans (((dat2 (V5 m) c).arrAt_in 1 rfl _).trans (A_eq2 (V5 m) c 1))
    · exact (W6_arr m c 2).trans (((dat2 (V5 m) c).arrAt_in 2 rfl _).trans (A_eq2 (V5 m) c 2))
    · exact (W6_arr m c 3).trans (((dat2 (V5 m) c).arrAt_in 3 rfl _).trans (A_eq2 (V5 m) c 3))
    · exact (W6_arr m c 4).trans (((dat2 (V5 m) c).arrAt_in 4 rfl _).trans (A_eq2 (V5 m) c 4))
    · exact absurd rfl hb
  · exact W6_of_ne m c b fun w e => h ⟨w, e⟩

/-- A buffer that no host stretch writes and that is no region's output reaches the end as launched. -/
theorem W6_launch (c : Dev nD) (r : Ref sig .tc) (h0 : r ∉ hostOps0_W) (h1 : r ∉ hostOps1_W) (h2 : r ∉ hostOps2_W)
    (n0 : r ≠ main_v15) (n1 : r ≠ main_v27) (n2 : r ≠ main_v39) : W6 m c (Proc.devRef .tc r) = m ((c : Thread nD τ).loc r) :=
  calc W6 m c (Proc.devRef .tc r)
    _ = W5 m c (Proc.devRef .tc r) := W6_keep m c r n2
    _ = W4 m c (Proc.devRef .tc r) := StableHlo.after_of_writes_sub hostOps2 _ hostOps2_writes h2
    _ = W3 m c (Proc.devRef .tc r) := W4_keep m c r n1
    _ = W2 m c (Proc.devRef .tc r) := StableHlo.after_of_writes_sub hostOps1 _ hostOps1_writes h1
    _ = W1 m c (Proc.devRef .tc r) := W2_keep m c r n0
    _ = W0 m c (Proc.devRef .tc r) := StableHlo.after_of_writes_sub hostOps0 _ hostOps0_writes h0
    _ = m ((c : Thread nD τ).loc r) := rfl

/-- THE FRAME: the run read at the eleven argument arrays. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      (h c _ (mem_uc main_arg0 (by decide))).trans (W6_launch m c main_arg0 (by decide) (by decide) (by decide) (by decide) (by decide) (by decide)),
      (h c _ (mem_uc main_arg1 (by decide))).trans (W6_launch m c main_arg1 (by decide) (by decide) (by decide) (by decide) (by decide) (by decide)),
      (h c _ (mem_uc main_arg2 (by decide))).trans (W6_launch m c main_arg2 (by decide) (by decide) (by decide) (by decide) (by decide) (by decide)),
      (h c _ (mem_uc main_arg3 (by decide))).trans (W6_launch m c main_arg3 (by decide) (by decide) (by decide) (by decide) (by decide) (by decide)),
      (h c _ (mem_uc main_arg4 (by decide))).trans (W6_launch m c main_arg4 (by decide) (by decide) (by decide) (by decide) (by decide) (by decide)),
      (h c _ (mem_uc main_arg5 (by decide))).trans (W6_launch m c main_arg5 (by decide) (by decide) (by decide) (by decide) (by decide) (by decide)),
      (h c _ (mem_uc main_arg6 (by decide))).trans (W6_launch m c main_arg6 (by decide) (by decide) (by decide) (by decide) (by decide) (by decide)),
      (h c _ (mem_uc main_arg7 (by decide))).trans (W6_launch m c main_arg7 (by decide) (by decide) (by decide) (by decide) (by decide) (by decide)),
      (h c _ (mem_uc main_arg8 (by decide))).trans (W6_launch m c main_arg8 (by decide) (by decide) (by decide) (by decide) (by decide) (by decide)),
      (h c _ (mem_uc main_arg9 (by decide))).trans (W6_launch m c main_arg9 (by decide) (by decide) (by decide) (by decide) (by decide) (by decide)),
      (h c _ (mem_uc main_arg10 (by decide))).trans (W6_launch m c main_arg10 (by decide) (by decide) (by decide) (by decide) (by decide) (by decide))⟩)
    (run_all m ρ)

end Cert.Kernel.Fr

end
-- ==== Proof.IdealAffine0.lean ====
/-
  The affine layer's kernel (pallas_call 0) at a grid point, as the pipeline runs it: from the blocks of its five
  input windows — a tile of 5000 rows of the aggregated features and of the node features, the two 128 × 128 weight
  matrices whole, the bias row whole — the body leaves in the output window's buffer one store of the whole tile,
  max (agg · W_relᵀ + x · W_rootᵀ + bias, 0). Everything is stated at a parameter V: what the core's arrays hold when
  the region is entered.
-/
import proofs.«115767_j86157043958238_1_alg».proof.Proof.Gen.KernelIdeal.Launch
import proofs.«115767_j86157043958238_1_alg».proof.Proof.Gen.KernelIdeal.Skeleton
import proofs.«115767_j86157043958238_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether or not the pipeline fetched it there:
    an unfetched input's block index has not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether or not the pipeline fetched it there:
    an unfetched input's block index has not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether or not the pipeline fetched it there:
    an unfetched input's block index has not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds its block at every point, whether or not the pipeline fetched it there:
    an unfetched input's block index has not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's staging buffer holds its block at every point, whether or not the pipeline fetched it there:
    an unfetched input's block index has not moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole buffer -/

abbrev r0_rows : Rect S5000x128 := Rect.unit (s := S5000x128) ![0, 0] S5000x128.size inb_S5000x128_S5000x128_0_0
abbrev r0_sq : Rect S128x128 := Rect.unit (s := S128x128) ![0, 0] S128x128.size inb_S128x128_S128x128_0_0
abbrev r0_row : Rect S1x128 := Rect.unit (s := S1x128) ![0, 0] S1x128.size inb_S1x128_S1x128_0_0

/-- The output tile after the body, from the five input blocks: its one store. -/
def out0_5 (x0 : Vec F S5000x128 .f32) (x1 : Vec F S5000x128 .f32) (x2 : Vec F S128x128 .f32) (x3 : Vec F S128x128 .f32) (x4 : Vec F S1x128 .f32) : Vec F S5000x128 .f32 :=
  View.canon [⟨r0_rows, k0_pay1 (View.ld x0 r0_rows) (View.ld x1 r0_rows) (View.ld x2 r0_sq) (View.ld x3 r0_sq) (View.ld x4 r0_row)⟩]

/-- The one store covers the tile. -/
theorem cover0_5 (p0 : Vec F S5000x128 .f32) (y : S5000x128.Idx) :
    ∃ pc ∈ ([⟨r0_rows, p0⟩] : List (View.Piece (Elt F) S5000x128 .f32)), y ∈ pc.1.set :=
  View.cover_of_tiled [⟨r0_rows, p0⟩] S5000x128.size (by rfl) y

/-! ## The body's triple -/

set_option maxHeartbeats 4000000 in
/-- On whole staging memrefs, the inputs' at read contents x0 … x4 and the output's at anything, the body runs to
    its return holding the inputs' as they were and the output's at out0_5 of them. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core c: the arrays as the region finds them; after the body at point t each
    input's buffer at its block and the output's at out0_5 of the input blocks; the invariant the scoped buffers the
    pipeline does not stage and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.IdealAffine1.lean ====
/-
  The affine layer's kernel (pallas_call 1) at a grid point, as the pipeline runs it: from the blocks of its five
  input windows — a tile of 5000 rows of the aggregated features and of the node features, the two 128 × 128 weight
  matrices whole, the bias row whole — the body leaves in the output window's buffer one store of the whole tile,
  max (agg · W_relᵀ + x · W_rootᵀ + bias, 0). Everything is stated at a parameter V: what the core's arrays hold when
  the region is entered.
-/
import proofs.«115767_j86157043958238_1_alg».proof.Proof.Gen.KernelIdeal.Launch
import proofs.«115767_j86157043958238_1_alg».proof.Proof.Gen.KernelIdeal.Skeleton
import proofs.«115767_j86157043958238_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether or not the pipeline fetched it there:
    an unfetched input's block index has not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether or not the pipeline fetched it there:
    an unfetched input's block index has not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether or not the pipeline fetched it there:
    an unfetched input's block index has not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, whether or not the pipeline fetched it there:
    an unfetched input's block index has not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, whether or not the pipeline fetched it there:
    an unfetched input's block index has not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole buffer -/

abbrev r1_rows : Rect S5000x128 := Rect.unit (s := S5000x128) ![0, 0] S5000x128.size inb_S5000x128_S5000x128_0_0
abbrev r1_sq : Rect S128x128 := Rect.unit (s := S128x128) ![0, 0] S128x128.size inb_S128x128_S128x128_0_0
abbrev r1_row : Rect S1x128 := Rect.unit (s := S1x128) ![0, 0] S1x128.size inb_S1x128_S1x128_0_0

/-- The output tile after the body, from the five input blocks: its one store. -/
def out1_5 (x0 : Vec F S5000x128 .f32) (x1 : Vec F S5000x128 .f32) (x2 : Vec F S128x128 .f32) (x3 : Vec F S128x128 .f32) (x4 : Vec F S1x128 .f32) : Vec F S5000x128 .f32 :=
  View.canon [⟨r1_rows, k1_pay1 (View.ld x0 r1_rows) (View.ld x1 r1_rows) (View.ld x2 r1_sq) (View.ld x3 r1_sq) (View.ld x4 r1_row)⟩]

/-- The one store covers the tile. -/
theorem cover1_5 (p0 : Vec F S5000x128 .f32) (y : S5000x128.Idx) :
    ∃ pc ∈ ([⟨r1_rows, p0⟩] : List (View.Piece (Elt F) S5000x128 .f32)), y ∈ pc.1.set :=
  View.cover_of_tiled [⟨r1_rows, p0⟩] S5000x128.size (by rfl) y

/-! ## The body's triple -/

set_option maxHeartbeats 4000000 in
/-- On whole staging memrefs, the inputs' at read contents x0 … x4 and the output's at anything, the body runs to
    its return holding the inputs' as they were and the output's at out1_5 of them. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S5000x128 .f32) (x2 : Vec F S128x128 .f32) (x3 : Vec F S128x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core c: the arrays as the region finds them; after the body at point t each
    input's buffer at its block and the output's at out1_5 of the input blocks; the invariant the scoped buffers the
    pipeline does not stage and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.IdealPoolRuns.lean ====
/-
  The pooling kernel (pallas_call 2): what its three kinds of grid point share. The body keeps a running total in a
  1 × 1 scratch: the first point resets it to zero, every point adds the sum of its tile's scores, and the last point
  multiplies the total by 1/100000 and stores it in the 1 × 1 output — which no other point touches. So a point is in
  one of three cases, decided by its position: first (and not last), neither, last (and not first). Here: the windows'
  blocks at a parameter V (the core's arrays when the region is entered), the two conditions in closed form, where the
  output window is idle, the staging and scratch memrefs, and the region's invariant with the scratch made explicit.
-/
import proofs.«115767_j86157043958238_1_alg».proof.Proof.Gen.KernelIdeal.Launch
import proofs.«115767_j86157043958238_1_alg».proof.Proof.Gen.KernelIdeal.Skeleton
import proofs.«115767_j86157043958238_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether or not the pipeline fetched it there. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether or not the pipeline fetched it there. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether or not the pipeline fetched it there. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, whether or not the pipeline fetched it there. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, whether or not the pipeline fetched it there. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions -/

/-- "This is the first point", as the body computes it from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 20 = 0 :=
  (by decide +kernel : ∀ t : Fin grid2.N, cond2_0 (grid2.coords t) ↔ t.val % 20 = 0)

/-- "This is the last point". -/
abbrev cond2_1 (i : grid2.Coords) : Prop := k2_cond2 i = 1#1
theorem hcond2_1 : ∀ t : Fin cfg2.N, cond2_1 (grid2.coords t) ↔ t.val % 20 = 19 :=
  (by decide +kernel : ∀ t : Fin grid2.N, cond2_1 (grid2.coords t) ↔ t.val % 20 = 19)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- At a point that is not the last the body stores nothing into the output window, -/
theorem idleAt2_5 : ∀ t : Fin cfg2.N, ¬cond2_1 (grid2.coords t) → cfg2.idle 5 (grid2.coords t) = true := by decide +kernel
/-- and the pipeline does not write its block back there. -/
theorem noFlush2_5 : ∀ t : Fin cfg2.N, ¬cond2_1 (grid2.coords t) → (cfg2.win 5).flush t = false := by decide +kernel
/-- At the last point the output window is live. -/
theorem liveAt2_5 : ∀ t : Fin cfg2.N, cond2_1 (grid2.coords t) → cfg2.idle 5 (grid2.coords t) = false := by decide +kernel

/-! ## The memrefs the body is called with -/

/-- One staging buffer of the output window, through which its contents are stated. -/
abbrev VO2_5 : View sig .tc .vmem S1x1 .f32 := (Memref.whole cc2_stg5_0 : Memref sig .tc .vmem S1x1 .f32).view
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1 .f32 := win2_5.stage (cfg2.slots t 5)
abbrev hs2_5 (t : Fin cfg2.N) : (ms2_5 t).IsWhole := hstage2_5 ((cfg2.slots t 5).cast nbuf2_5)
/-- The scratch that carries the running total: a whole scoped buffer of the kernel's own. -/
abbrev scM2_0 : Memref sig .tc .vmem S1x1 .f32 := Memref.whole cc2_scratch0
abbrev VS2_0 : View sig .tc .vmem S1x1 .f32 := scM2_0.view

/-! ## The invariant, with the scratch made explicit -/

/-- The scoped buffers the pipeline does not stage: the other two kernels' eighteen staging buffers, each at some
    contents, and the scratch at what S says of it. -/
def scoped2 (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ S)

/-- The region's plain invariant: the scoped rest, with the scratch at anything, and the generator register. -/
theorem PhiA2_eq (c : Dev nD) :
    (Pipeline.ΦA spec2 c : sProp 𝕄)
      = iprop(scoped2 (F := F) c (iprop(∃ d, owns (c : Thread nD τ) scM2_0 fullShare d)) ∗ (∃ r, prngReg c r)) := by
  unfold Pipeline.ΦA scoped2; rw [scopedRest2_eq]; simp only [scM2_0, owns_whole]; try rfl

end Cert.KernelIdeal.Fr

end
-- ==== Proof.IdealPoolRunA.lean ====
/-
  The pooling kernel's whole body run at the first point (the total is reset, then the tile's sum added; the output is left alone): on whole staging memrefs, the inputs' at their contents, the output's at contents handed back untouched, the scratch at anything, the body runs to its return holding the inputs' as they were and the scratch with the pieces it stored written — the pieces are the witness the run finds.
-/
import proofs.«115767_j86157043958238_1_alg».proof.Proof.IdealPoolRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i)
    (x0 : Vec F S5000x128 .f32) (x1 : Vec F S5000x128 .f32) (x2 : Vec F S1x128 .f32) (x3 : Vec F S1x128 .f32) (x4 : Vec F S1x1 .f32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg1 harg1 arg2 harg2 arg3 harg3 arg4 harg4 arg5 harg5 arg6 harg6 arg7 harg7) K } := by
  refine ⟨[], ?_, fun xi5 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Fr

end
-- ==== Proof.IdealPoolRunB.lean ====
/-
  The pooling kernel's whole body run at a point that is neither first nor last (the tile's sum is added to the total; the output is left alone): on whole staging memrefs, the inputs' at their contents, the output's at contents handed back untouched, the scratch at what the point before left, the body runs to its return holding the inputs' as they were and the scratch with the pieces it stored written — the pieces are the witness the run finds.
-/
import proofs.«115767_j86157043958238_1_alg».proof.Proof.IdealPoolRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i)
    (x0 : Vec F S5000x128 .f32) (x1 : Vec F S5000x128 .f32) (x2 : Vec F S1x128 .f32) (x3 : Vec F S1x128 .f32) (x4 : Vec F S1x1 .f32) (xs0 : Vec F S1x1 .f32) :
    Σ' (L5 : List (View.Piece (Elt F) S1x1 .f32)), { LS0 : List (View.Piece (Elt F) S1x1 .f32) //
      ∀ (xi5 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg1 harg1 arg2 harg2 arg3 harg3 arg4 harg4 arg5 harg5 arg6 harg6 arg7 harg7) K } := by
  refine ⟨[], ?_, fun xi5 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

end Cert.KernelIdeal.Fr

end
-- ==== Proof.IdealPoolRunC.lean ====
/-
  The pooling kernel's whole body run at the last point (the tile's sum is added to the total, and the total times 1/100000 is stored in the output): on whole staging memrefs, the inputs' at their contents, the output's at anything, the scratch at what the point before left, the body runs to its return holding the inputs' as they were and the scratch and the output with the pieces it stored written — the pieces are the witness the run finds.
-/
import proofs.«115767_j86157043958238_1_alg».proof.Proof.IdealPoolRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 : Vec F S5000x128 .f32) (x1 : Vec F S5000x128 .f32) (x2 : Vec F S1x128 .f32) (x3 : Vec F S1x128 .f32) (x4 : Vec F S1x1 .f32) (xs0 : Vec F S1x1 .f32) :
    Σ' (L5 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg1 harg1 arg2 harg2 arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Fr

end
-- ==== Proof.IdealPool.lean ====
/-
  The pooling kernel (pallas_call 2) as a pipeline body with a carried total. What each case leaves in the scratch
  and in the output (the runs' pieces read back), what the buffers hold point by point (outsAt2: the first point, then
  each later point over what the point before left in the scratch), the region's invariant (before the first point
  the scratch holds anything; afterwards it holds the running total the point before left), the proof data, and the
  body obligation at a generic point. Everything at a parameter V: the core's arrays when the region is entered.
-/
import proofs.«115767_j86157043958238_1_alg».proof.Proof.IdealPoolRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each case leaves -/

/-- Case A stores nothing into the output (the window is idle there and not written back): a placeholder nothing consults. -/
def out2_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i)
    (x0 : Vec F S5000x128 .f32) (x1 : Vec F S5000x128 .f32) (x2 : Vec F S1x128 .f32) (x3 : Vec F S1x128 .f32) (x4 : Vec F S1x1 .f32) : Vec F S1x1 .f32 :=
  VO2_5.read (Elt F) (VO2_5.writes (Elt F) VO2_5.junk (kernelRun2_A c i arg1 harg1 arg2 harg2 arg3 harg3 arg4 harg4 arg5 harg5 arg6 harg6 arg7 harg7 hc0 hc1 x0 x1 x2 x3 x4).1)

/-- Case A's stores into the scratch cover it. -/
theorem scover2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i)
    (x0 : Vec F S5000x128 .f32) (x1 : Vec F S5000x128 .f32) (x2 : Vec F S1x128 .f32) (x3 : Vec F S1x128 .f32) (x4 : Vec F S1x1 .f32) (y : S1x1.Idx) :
    ∃ pc ∈ (kernelRun2_A c i arg1 harg1 arg2 harg2 arg3 harg3 arg4 harg4 arg5 harg5 arg6 harg6 arg7 harg7 hc0 hc1 x0 x1 x2 x3 x4).2.1, y ∈ pc.1.set :=
  View.cover_of_tiledL (kernelRun2_A c i arg1 harg1 arg2 harg2 arg3 harg3 arg4 harg4 arg5 harg5 arg6 harg6 arg7 harg7 hc0 hc1 x0 x1 x2 x3 x4).2.1 S1x1.size (by sl_kernel_rfl) y

/-- What case A leaves in the scratch: the running total after the point. -/
def sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i)
    (x0 : Vec F S5000x128 .f32) (x1 : Vec F S5000x128 .f32) (x2 : Vec F S1x128 .f32) (x3 : Vec F S1x128 .f32) (x4 : Vec F S1x1 .f32) : Vec F S1x1 .f32 :=
  VS2_0.read (Elt F) (VS2_0.writes (Elt F) VS2_0.junk (kernelRun2_A c i arg1 harg1 arg2 harg2 arg3 harg3 arg4 harg4 arg5 harg5 arg6 harg6 arg7 harg7 hc0 hc1 x0 x1 x2 x3 x4).2.1)

/-- Case B stores nothing into the output (the window is idle there and not written back): a placeholder nothing consults. -/
def out2_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i)
    (x0 : Vec F S5000x128 .f32) (x1 : Vec F S5000x128 .f32) (x2 : Vec F S1x128 .f32) (x3 : Vec F S1x128 .f32) (x4 : Vec F S1x1 .f32) (xs0 : Vec F S1x1 .f32) : Vec F S1x1 .f32 :=
  VO2_5.read (Elt F) (VO2_5.writes (Elt F) VO2_5.junk (kernelRun2_B c i arg1 harg1 arg2 harg2 arg3 harg3 arg4 harg4 arg5 harg5 arg6 harg6 arg7 harg7 hc0 hc1 x0 x1 x2 x3 x4 xs0).1)

/-- Case B's stores into the scratch cover it. -/
theorem scover2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i)
    (x0 : Vec F S5000x128 .f32) (x1 : Vec F S5000x128 .f32) (x2 : Vec F S1x128 .f32) (x3 : Vec F S1x128 .f32) (x4 : Vec F S1x1 .f32) (xs0 : Vec F S1x1 .f32) (y : S1x1.Idx) :
    ∃ pc ∈ (kernelRun2_B c i arg1 harg1 arg2 harg2 arg3 harg3 arg4 harg4 arg5 harg5 arg6 harg6 arg7 harg7 hc0 hc1 x0 x1 x2 x3 x4 xs0).2.1, y ∈ pc.1.set :=
  View.cover_of_tiledL (kernelRun2_B c i arg1 harg1 arg2 harg2 arg3 harg3 arg4 harg4 arg5 harg5 arg6 harg6 arg7 harg7 hc0 hc1 x0 x1 x2 x3 x4 xs0).2.1 S1x1.size (by sl_kernel_rfl) y

/-- What case B leaves in the scratch: the running total after the point. -/
def sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i)
    (x0 : Vec F S5000x128 .f32) (x1 : Vec F S5000x128 .f32) (x2 : Vec F S1x128 .f32) (x3 : Vec F S1x128 .f32) (x4 : Vec F S1x1 .f32) (xs0 : Vec F S1x1 .f32) : Vec F S1x1 .f32 :=
  VS2_0.read (Elt F) (VS2_0.writes (Elt F) VS2_0.junk (kernelRun2_B c i arg1 harg1 arg2 harg2 arg3 harg3 arg4 harg4 arg5 harg5 arg6 harg6 arg7 harg7 hc0 hc1 x0 x1 x2 x3 x4 xs0).2.1)

/-- At the last point the one store into the output covers it. -/
theorem cover2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 : Vec F S5000x128 .f32) (x1 : Vec F S5000x128 .f32) (x2 : Vec F S1x128 .f32) (x3 : Vec F S1x128 .f32) (x4 : Vec F S1x1 .f32) (xs0 : Vec F S1x1 .f32) (y : S1x1.Idx) :
    ∃ pc ∈ (kernelRun2_C c i arg1 harg1 arg2 harg2 arg3 harg3 arg4 harg4 arg5 harg5 arg6 harg6 arg7 harg7 hc0 hc1 x0 x1 x2 x3 x4 xs0).1, y ∈ pc.1.set :=
  View.cover_of_tiledL (kernelRun2_C c i arg1 harg1 arg2 harg2 arg3 harg3 arg4 harg4 arg5 harg5 arg6 harg6 arg7 harg7 hc0 hc1 x0 x1 x2 x3 x4 xs0).1 S1x1.size (by sl_kernel_rfl) y

/-- What the last point leaves in the output's staging buffer. -/
def out2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 : Vec F S5000x128 .f32) (x1 : Vec F S5000x128 .f32) (x2 : Vec F S1x128 .f32) (x3 : Vec F S1x128 .f32) (x4 : Vec F S1x1 .f32) (xs0 : Vec F S1x1 .f32) : Vec F S1x1 .f32 :=
  VO2_5.read (Elt F) (VO2_5.writes (Elt F) VO2_5.junk (kernelRun2_C c i arg1 harg1 arg2 harg2 arg3 harg3 arg4 harg4 arg5 harg5 arg6 harg6 arg7 harg7 hc0 hc1 x0 x1 x2 x3 x4 xs0).1)

/-- Case C's stores into the scratch cover it. -/
theorem scover2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 : Vec F S5000x128 .f32) (x1 : Vec F S5000x128 .f32) (x2 : Vec F S1x128 .f32) (x3 : Vec F S1x128 .f32) (x4 : Vec F S1x1 .f32) (xs0 : Vec F S1x1 .f32) (y : S1x1.Idx) :
    ∃ pc ∈ (kernelRun2_C c i arg1 harg1 arg2 harg2 arg3 harg3 arg4 harg4 arg5 harg5 arg6 harg6 arg7 harg7 hc0 hc1 x0 x1 x2 x3 x4 xs0).2.1, y ∈ pc.1.set :=
  View.cover_of_tiledL (kernelRun2_C c i arg1 harg1 arg2 harg2 arg3 harg3 arg4 harg4 arg5 harg5 arg6 harg6 arg7 harg7 hc0 hc1 x0 x1 x2 x3 x4 xs0).2.1 S1x1.size (by sl_kernel_rfl) y

/-- What case C leaves in the scratch: the running total after the point. -/
def sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 : Vec F S5000x128 .f32) (x1 : Vec F S5000x128 .f32) (x2 : Vec F S1x128 .f32) (x3 : Vec F S1x128 .f32) (x4 : Vec F S1x1 .f32) (xs0 : Vec F S1x1 .f32) : Vec F S1x1 .f32 :=
  VS2_0.read (Elt F) (VS2_0.writes (Elt F) VS2_0.junk (kernelRun2_C c i arg1 harg1 arg2 harg2 arg3 harg3 arg4 harg4 arg5 harg5 arg6 harg6 arg7 harg7 hc0 hc1 x0 x1 x2 x3 x4 xs0).2.1)

variable (V : (c : Dev nD) → (b : Ref sig .tc) → Buf (Elt F) ((c : Thread nD τ).loc b))

/-! ## What the output's buffer and the scratch hold after each point -/

/-- After the body at position n: (the output's staging buffer, the scratch). The first point runs case A; a later
    point runs case C if it is the last and case B otherwise, over the total the point before left in the scratch. -/
def outsAt2 (c : Dev nD) : (n : ℕ) → n < cfg2.N → Vec F S1x1 .f32 × Vec F S1x1 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 20 = 0 then
      False.elim (by have hN : n + 1 < 20 := lt_of_lt_of_eq hn (show cfg2.N = 20 from N_2); omega)
    else
      if h1 : (n + 1) % 20 = 19 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

/-- outsAt2 at the first point. -/
theorem outsAt2_A (c : Dev nD) (t : Fin cfg2.N) (h0 : t.val % 20 = 0) (h1 : ¬t.val % 20 = 19) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (by exfalso; have hN : n + 1 < 20 := lt_of_lt_of_eq hn (show cfg2.N = 20 from N_2); (try dsimp only at h0); omega)

/-- outsAt2 at a point that is neither first nor last: over what the point before left. -/
theorem outsAt2_B (c : Dev nD) (t : Fin cfg2.N) (h0 : ¬t.val % 20 = 0) (h1 : ¬t.val % 20 = 19) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- outsAt2 at the last point: over what the point before left. -/
theorem outsAt2_C (c : Dev nD) (t : Fin cfg2.N) (h0 : ¬t.val % 20 = 0) (h1 : t.val % 20 = 19) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: at 0 the region's plain invariant (the scratch at anything); afterwards the scoped rest with
    the scratch at the running total the point before left, and the generator register. -/
def PhiS2 (c : Dev nD) : (n : ℕ) → n ≤ cfg2.N → sProp 𝕄
  | 0, _ => Pipeline.ΦA spec2 c
  | n + 1, hn => iprop(scoped2 (F := F) c (owns (c : Thread nD τ) scM2_0 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(scoped2 (F := F) c (owns (c : Thread nD τ) scM2_0 fullShare ((outsAt2 V c n hn).2)) ∗ (∃ r, prngReg c r)) := rfl

theorem PhiS2_pos (c : Dev nD) (n : ℕ) (h : n ≤ cfg2.N) (hz : n ≠ 0) :
    PhiS2 V c n h = iprop(scoped2 (F := F) c (owns (c : Thread nD τ) scM2_0 fullShare ((outsAt2 V c (n - 1) (by omega)).2)) ∗ (∃ r, prngReg c r)) := by
  cases n with
  | zero => exact absurd rfl hz
  | succ n => rfl

/-! ## The pipeline's proof data -/

/-- The proof data of pipeline 2 on core c: the arrays as the region finds them; after the body at point t each
    input's buffer at its block and the output's at outsAt2's first component; the invariant PhiS2; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point: the inputs' memrefs hold their blocks; the point's position says which case it is in; the
    invariant hands the body the scratch at the total the point before left (at anything at the first point) and takes
    it back at this point's total; the other scoped buffers, the generator register and the core's dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 20 := lt_of_lt_of_eq t.isLt (show cfg2.N = 20 from N_2)
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [show (dat2 V c).leavesExact 4 t = owns (c : Thread nD τ) (ms2_4 t) fullShare ((dat2 V c).after 4 t) from by
      unfold Dat.leavesExact; rw [liveAt2_4 t], after2_4]
  by_cases h0 : t.val % 20 = 0
  · have h1 : ¬t.val % 20 = 19 := by omega
    rw [Dat.leavesExact_idle (dat2 V c) 5 t (idleAt2_5 t (fun h => h1 ((hcond2_1 t).mp h))) (noFlush2_5 t (fun h => h1 ((hcond2_1 t).mp h)))]
    rw [outsAt2_A V c t h0 h1]
    unfold sout2_A_0; (try dsimp only)
    have hz : t.val = 0 := by omega
    rw [PhiS2_castSucc V c t, PhiS2_zero V c _ _ hz, PhiA2_eq]; unfold scoped2
    iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HR0 HR1 HR2 HR3 HR4 HR5 HR6 HR7 HR8 HR9 HR10 HR11 HR12 HR13 HR14 HR15 HR16 HR17 HS0 Hg]
    · isplitl [HR0 HR1 HR2 HR3 HR4 HR5 HR6 HR7 HR8 HR9 HR10 HR11 HR12 HR13 HR14 HR15 HR16 HR17 HS0]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        isplitl [HR10]; · iexact HR10
        isplitl [HR11]; · iexact HR11
        isplitl [HR12]; · iexact HR12
        isplitl [HR13]; · iexact HR13
        isplitl [HR14]; · iexact HR14
        isplitl [HR15]; · iexact HR15
        isplitl [HR16]; · iexact HR16
        isplitl [HR17]; · iexact HR17
        unfold owns; iexists _; isplitr
        swap; · iexact HS0
        ipureintro; exact View.read_writes_of_cover _ _ _ _ _ (scover2_A_0 c _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val % 20 = 19
    ·
      rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C_5 sout2_C_0; (try dsimp only)
      have hz : t.val ≠ 0 := by omega
      rw [PhiS2_castSucc V c t, PhiS2_pos V c _ _ hz]; unfold scoped2
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover2_C_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _)
    ·
      rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B_0; (try dsimp only)
      have hz : t.val ≠ 0 := by omega
      rw [PhiS2_castSucc V c t, PhiS2_pos V c _ _ hz]; unfold scoped2
      iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HR0 HR1 HR2 HR3 HR4 HR5 HR6 HR7 HR8 HR9 HR10 HR11 HR12 HR13 HR14 HR15 HR16 HR17 HS0 Hg]
      · isplitl [HR0 HR1 HR2 HR3 HR4 HR5 HR6 HR7 HR8 HR9 HR10 HR11 HR12 HR13 HR14 HR15 HR16 HR17 HS0]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          isplitl [HR10]; · iexact HR10
          isplitl [HR11]; · iexact HR11
          isplitl [HR12]; · iexact HR12
          isplitl [HR13]; · iexact HR13
          isplitl [HR14]; · iexact HR14
          isplitl [HR15]; · iexact HR15
          isplitl [HR16]; · iexact HR16
          isplitl [HR17]; · iexact HR17
          unfold owns; iexists _; isplitr
          swap; · iexact HS0
          ipureintro; exact View.read_writes_of_cover _ _ _ _ _ (scover2_B_0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the plain one back: the scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]; unfold scoped2
  iintro ⟨⟨HR0, HR1, HR2, HR3, HR4, HR5, HR6, HR7, HR8, HR9, HR10, HR11, HR12, HR13, HR14, HR15, HR16, HR17, HS0⟩, Hg⟩
  isplitl [HR0 HR1 HR2 HR3 HR4 HR5 HR6 HR7 HR8 HR9 HR10 HR11 HR12 HR13 HR14 HR15 HR16 HR17 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    iexists _; iexact HS0
  iexact Hg

theorem hout2 (c : Dev nD) : (dat2 V c).Φ (Fin.last cfg2.N) ⊢ Pipeline.ΦA spec2 c :=
  Phi_out2 V c _ (by rw [Fin.val_last]; have : cfg2.N = 20 := N_2; omega)

end Cert.KernelIdeal.Fr

end
-- ==== Proof.IdealRun.lean ====
/-
  The whole run of @main: three stretches of host operations and three kernel regions in turn. The contents of the
  core's buffers at each boundary are a fold from the launch memory — a host stretch applies its operations, a region
  puts its output array at what its write-backs leave and keeps every other buffer —; each region is entered from the
  contents the stretch before it leaves, with its proof data stated at those contents. Every weakly fair execution
  terminates, and in the final memory every unscoped buffer holds the last boundary's contents: the arguments as
  launched (no stretch and no region writes one), the result array at what the pooling region leaves.
-/
import proofs.«115767_j86157043958238_1_alg».proof.Proof.IdealAffine0
import proofs.«115767_j86157043958238_1_alg».proof.Proof.IdealAffine1
import proofs.«115767_j86157043958238_1_alg».proof.Proof.IdealPool
import proofs.«115767_j86157043958238_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffer contents at each boundary -/

/-- Core c's buffers at launch. -/
abbrev W0 (c : Dev nD) : Valuation τ sig (Elt F) := fun b => m (c, b)
/-- After the first host stretch (region 0's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs
    folded), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b

/-- At region 1's exit: its arrays at what the pipeline leaves (the inputs as entered, the output's write-backs
    folded), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (region 2's entry). -/
abbrev W5 (c : Dev nD) : Valuation τ sig (Elt F) := StableHlo.after hostOps2 (W4 m c)
abbrev V5 : (c : Dev nD) → (b : Ref sig .tc) → Buf (Elt F) ((c : Thread nD τ).loc b) := fun c b => W5 m c b

/-- At region 2's exit: its arrays at what the pipeline leaves (the inputs as entered, the output's write-backs
    folded), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state "every unscoped buffer at the boundary's contents, the generator register at some
    state, nothing owed": its arrays are split out of the unscoped buffers on entry and put back at the exit contents;
    the generator register goes into the region's invariant and comes out; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers on entry and put back at the exit contents;
    the generator register goes into the region's invariant and comes out; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer at the boundary's contents, the generator register at some
    state, nothing owed": its arrays are split out of the unscoped buffers on entry and put back at the exit contents;
    the generator register goes into the region's invariant and comes out; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec2 c ⊢ (pdats m 2 c).Φ 0 from hin2 (V5 m) c)
    unfold Pipeline.ΦA
    iintro ⟨Hp, -, Hr⟩
    isplitl [Hr]; · iexact Hr
    iexact Hp
  hout c := by
    rw [Pipeline.ownSems0_none]
    refine BIBase.Entails.trans (show (pdats m 2 c).Φ (Fin.last _) ⊢ Pipeline.ΦA spec2 c from hout2 (V5 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and in every final memory every unscoped buffer of every core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

/-! ## What no segment writes -/

/-- A region's boundary keeps every array but its output: an input window's array by the library's reading of an
    input's write-backs (there are none), an array no window stages by the fold itself. -/
theorem W2_keep (c : Dev nD) (b : Ref sig .tc) (hb : b ≠ main_v15) : W2 m c (Proc.devRef .tc b) = W1 m c (Proc.devRef .tc b) := by
  by_cases h : ∃ w, Pipeline.arrRef spec0 w = b
  · obtain ⟨w, rfl⟩ := h
    fin_cases w
    · exact (W2_arr m c 0).trans (((dat0 (V1 m) c).arrAt_in 0 rfl _).trans (A_eq0 (V1 m) c 0))
    · exact (W2_arr m c 1).trans (((dat0 (V1 m) c).arrAt_in 1 rfl _).trans (A_eq0 (V1 m) c 1))
    · exact (W2_arr m c 2).trans (((dat0 (V1 m) c).arrAt_in 2 rfl _).trans (A_eq0 (V1 m) c 2))
    · exact (W2_arr m c 3).trans (((dat0 (V1 m) c).arrAt_in 3 rfl _).trans (A_eq0 (V1 m) c 3))
    · exact (W2_arr m c 4).trans (((dat0 (V1 m) c).arrAt_in 4 rfl _).trans (A_eq0 (V1 m) c 4))
    · exact absurd rfl hb
  · exact W2_of_ne m c b fun w e => h ⟨w, e⟩
theorem W4_keep (c : Dev nD) (b : Ref sig .tc) (hb : b ≠ main_v27) : W4 m c (Proc.devRef .tc b) = W3 m c (Proc.devRef .tc b) := by
  by_cases h : ∃ w, Pipeline.arrRef spec1 w = b
  · obtain ⟨w, rfl⟩ := h
    fin_cases w
    · exact (W4_arr m c 0).trans (((dat1 (V3 m) c).arrAt_in 0 rfl _).trans (A_eq1 (V3 m) c 0))
    · exact (W4_arr m c 1).trans (((dat1 (V3 m) c).arrAt_in 1 rfl _).trans (A_eq1 (V3 m) c 1))
    · exact (W4_arr m c 2).trans (((dat1 (V3 m) c).arrAt_in 2 rfl _).trans (A_eq1 (V3 m) c 2))
    · exact (W4_arr m c 3).trans (((dat1 (V3 m) c).arrAt_in 3 rfl _).trans (A_eq1 (V3 m) c 3))
    · exact (W4_arr m c 4).trans (((dat1 (V3 m) c).arrAt_in 4 rfl _).trans (A_eq1 (V3 m) c 4))
    · exact absurd rfl hb
  · exact W4_of_ne m c b fun w e => h ⟨w, e⟩
theorem W6_keep (c : Dev nD) (b : Ref sig .tc) (hb : b ≠ main_v39) : W6 m c (Proc.devRef .tc b) = W5 m c (Proc.devRef .tc b) := by
  by_cases h : ∃ w, Pipeline.arrRef spec2 w = b
  · obtain ⟨w, rfl⟩ := h
    fin_cases w
    · exact (W6_arr m c 0).trans (((dat2 (V5 m) c).arrAt_in 0 rfl _).trans (A_eq2 (V5 m) c 0))
    · exact (W6_arr m c 1).trans (((dat2 (V5 m) c).arrAt_in 1 rfl _).trans (A_eq2 (V5 m) c 1))
    · exact (W6_arr m c 2).trans (((dat2 (V5 m) c).arrAt_in 2 rfl _).trans (A_eq2 (V5 m) c 2))
    · exact (W6_arr m c 3).trans (((dat2 (V5 m) c).arrAt_in 3 rfl _).trans (A_eq2 (V5 m) c 3))
    · exact (W6_arr m c 4).trans (((dat2 (V5 m) c).arrAt_in 4 rfl _).trans (A_eq2 (V5 m) c 4))
    · exact absurd rfl hb
  · exact W6_of_ne m c b fun w e => h ⟨w, e⟩

/-- A buffer that no host stretch writes and that is no region's output reaches the end as launched. -/
theorem W6_launch (c : Dev nD) (r : Ref sig .tc) (h0 : r ∉ hostOps0_W) (h1 : r ∉ hostOps1_W) (h2 : r ∉ hostOps2_W)
    (n0 : r ≠ main_v15) (n1 : r ≠ main_v27) (n2 : r ≠ main_v39) : W6 m c (Proc.devRef .tc r) = m ((c : Thread nD τ).loc r) :=
  calc W6 m c (Proc.devRef .tc r)
    _ = W5 m c (Proc.devRef .tc r) := W6_keep m c r n2
    _ = W4 m c (Proc.devRef .tc r) := StableHlo.after_of_writes_sub hostOps2 _ hostOps2_writes h2
    _ = W3 m c (Proc.devRef .tc r) := W4_keep m c r n1
    _ = W2 m c (Proc.devRef .tc r) := StableHlo.after_of_writes_sub hostOps1 _ hostOps1_writes h1
    _ = W1 m c (Proc.devRef .tc r) := W2_keep m c r n0
    _ = W0 m c (Proc.devRef .tc r) := StableHlo.after_of_writes_sub hostOps0 _ hostOps0_writes h0
    _ = m ((c : Thread nD τ).loc r) := rfl

/-- THE FRAME: the run read at the eleven argument arrays. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      (h c _ (mem_uc main_arg0 (by decide))).trans (W6_launch m c main_arg0 (by decide) (by decide) (by decide) (by decide) (by decide) (by decide)),
      (h c _ (mem_uc main_arg1 (by decide))).trans (W6_launch m c main_arg1 (by decide) (by decide) (by decide) (by decide) (by decide) (by decide)),
      (h c _ (mem_uc main_arg2 (by decide))).trans (W6_launch m c main_arg2 (by decide) (by decide) (by decide) (by decide) (by decide) (by decide)),
      (h c _ (mem_uc main_arg3 (by decide))).trans (W6_launch m c main_arg3 (by decide) (by decide) (by decide) (by decide) (by decide) (by decide)),
      (h c _ (mem_uc main_arg4 (by decide))).trans (W6_launch m c main_arg4 (by decide) (by decide) (by decide) (by decide) (by decide) (by decide)),
      (h c _ (mem_uc main_arg5 (by decide))).trans (W6_launch m c main_arg5 (by decide) (by decide) (by decide) (by decide) (by decide) (by decide)),
      (h c _ (mem_uc main_arg6 (by decide))).trans (W6_launch m c main_arg6 (by decide) (by decide) (by decide) (by decide) (by decide) (by decide)),
      (h c _ (mem_uc main_arg7 (by decide))).trans (W6_launch m c main_arg7 (by decide) (by decide) (by decide) (by decide) (by decide) (by decide)),
      (h c _ (mem_uc main_arg8 (by decide))).trans (W6_launch m c main_arg8 (by decide) (by decide) (by decide) (by decide) (by decide) (by decide)),
      (h c _ (mem_uc main_arg9 (by decide))).trans (W6_launch m c main_arg9 (by decide) (by decide) (by decide) (by decide) (by decide) (by decide)),
      (h c _ (mem_uc main_arg10 (by decide))).trans (W6_launch m c main_arg10 (by decide) (by decide) (by decide) (by decide) (by decide) (by decide))⟩)
    (run_all m ρ)

end Cert.KernelIdeal.Fr

end
-- ==== Proof.Spec.lean ====
/-
  The network both programs compute, over the extended reals, entry by entry.

  A graph-convolution layer takes the node features X, their neighbourhood sums A (one row per node), two weight
  matrices W, W' (one row per output channel) and a bias b, and gives, at node p and channel q,
      max ( (∑ₖ A[p,k]·W[q,k] + ∑ₖ X[p,k]·W'[q,k]) + b[q] , 0 ).
  The last layer has one output channel and no rectifier: node i scores
      (∑ₖ A[i,k]·w[k] + ∑ₖ X[i,k]·w'[k]) + b,
  and the result is the mean of the scores over the 100000 nodes, written as their sum times 1/100000.
-/
import Idealize.ShloMosaic.PureOps.Ideal
import Idealize.ShloMosaic.Lib.ValueIdx

noncomputable section

namespace Cert.Spec

open Idealize.ShloMosaic Idealize.ShloMosaic.ValueIdx

/-- One row of 128 features per node. -/
abbrev Nodes : Type := (⟨2, ![100000, 128]⟩ : Shape).Idx → EReal
/-- A 128 × 128 weight matrix, one row per output channel. -/
abbrev Weights : Type := (⟨2, ![128, 128]⟩ : Shape).Idx → EReal
/-- The last layer's weights: one row of 128. -/
abbrev WRow : Type := (⟨2, ![1, 128]⟩ : Shape).Idx → EReal
/-- The result: one number, as a 1 × 1 array. -/
abbrev Out : Type := (⟨2, ![1, 1]⟩ : Shape).Idx → EReal

/-- A rectified layer at node p, channel q. -/
def layerAt (A X : Nodes) (W W' : Weights) (b : Fin 128 → EReal) (p : Fin 100000) (q : Fin 128) : EReal :=
  max (((∑ k : Fin 128, A (ix2 p k) * W (ix2 q k)) + ∑ k : Fin 128, X (ix2 p k) * W' (ix2 q k)) + b q) 0

/-- A rectified layer, as an array. -/
def layer (A X : Nodes) (W W' : Weights) (b : Fin 128 → EReal) : Nodes :=
  fun i => layerAt A X W W' b (i 0) (i 1)

theorem layer_apply (A X : Nodes) (W W' : Weights) (b : Fin 128 → EReal) (p : Fin 100000) (q : Fin 128) :
    layer A X W W' b (ix2 p q) = layerAt A X W W' b p q := rfl

/-- The last layer's score of node i. -/
def scoreAt (A X : Nodes) (w w' : WRow) (b : EReal) (i : Fin 100000) : EReal :=
  ((∑ k : Fin 128, A (ix2 i k) * w (ix2 0 k)) + ∑ k : Fin 128, X (ix2 i k) * w' (ix2 0 k)) + b

/-- The mean score over the nodes. -/
def pool (A X : Nodes) (w w' : WRow) (b : EReal) : Out :=
  fun _ => (∑ i : Fin 100000, scoreAt A X w w' b i) * ((1 / 100000 : ℝ) : EReal)

end Cert.Spec

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.IdealValPayload.lean ====
/-
  The rectified layers' tile arithmetic, entry by entry, over the extended reals.

  A tile holds 5000 rows of the neighbourhood sums (x0) and of the node features (x1); x2 and x3 are the two
  128 × 128 weight matrices, one row per output channel, and x4 is the bias as a row. The body multiplies each tile by
  the transposed matrix into a zero accumulator, adds the two products, adds the bias row repeated down the tile, and
  takes the maximum with zero. Changing the float format does nothing to an extended real, and the transposed matrix
  at (k, q) is the matrix at (q, k), so the entry at row p, channel q is
      max ((∑ₖ x0[p,k]·x2[q,k] + ∑ₖ x1[p,k]·x3[q,k]) + x4[0,q], 0).
  When the tile's row p is row P of the arrays A and X, the matrices' row q is row Q of W and W', and the bias entry is
  b Q, that is the layer's value at (P, Q).
-/
import proofs.«115767_j86157043958238_1_alg».proof.Proof.Gen.KernelIdeal.Skeleton
import proofs.«115767_j86157043958238_1_alg».proof.Proof.Spec
import proofs.«115767_j86157043958238_1_alg».proof.Proof.LibDotRows
import proofs.«115767_j86157043958238_1_alg».proof.Proof.LibRowBroadcast
import Idealize.ShloMosaic.PureOps.Ideal.Laws
import Idealize.ShloMosaic.Lib.Pipeline.Value
import Idealize.ShloMosaic.Lib.ValueIdx

noncomputable section

namespace Cert.KernelIdeal.Val

open Cert.KernelIdeal Cert.KernelIdeal.Gen
open Idealize.ShloMosaic Idealize.ShloMosaic.ValueIdx Idealize.SL.Sem
open Cert.Hand Cert.RowBroadcast

/-- The transposed weight matrix at (k, q) is the matrix at (q, k). -/
theorem transpose_sq_apply (w : FVec Ideal S128x128 .bf16) (k q : Fin 128) :
    transpose S128x128 [1, 0] w transposes_S128x128_p1_0_S128x128 (ix2 k q) = w (ix2 q k) :=
  transpose_apply [1, 0] w transposes_S128x128_p1_0_S128x128 (ix2 k q) (ix2 q k)
    (fun b => by match b with | ⟨0, _⟩ => rfl | ⟨1, _⟩ => rfl)

/-- A tile of rows times a matrix, into the zero accumulator, at (p, q): the sum over k of l (p, k) · r (k, q). -/
theorem matmul_rows_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  dot_rows dot_S5000x128_S128x128_S5000x128_1_0_0_1_n_n S5000x128 S128x128 128

/-- The same against the transposed matrix: the sum over k of l (p, k) · w (q, k). -/
theorem matmul_rowsT_apply (l : FVec Ideal S5000x128 .bf16) (w : FVec Ideal S128x128 .bf16) (p : Fin 5000) (q : Fin 128) :
    matmul dot_S5000x128_S128x128_S5000x128_1_0_0_1_n_n none l
        (transpose S128x128 [1, 0] w transposes_S128x128_p1_0_S128x128) (constant S5000x128 .f32 0x00000000#32) (ix2 p q)
      = ∑ k : Fin 128, l (ix2 p k) * w (ix2 q k) :=
  (matmul_rows_apply l _ p q).trans
    (Finset.sum_congr rfl fun k _ => congrArg (l (ix2 p k) * ·) (transpose_sq_apply w k q))

/-- The first layer's tile at row p, channel q. -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = max (((∑ k : Fin 128, x0 (ix2 p k) * x2 (ix2 q k)) + ∑ k : Fin 128, x1 (ix2 p k) * x3 (ix2 q k)) + x4 (ix2 0 q)) 0 := by
  unfold k0_pay1
  rw [maximumf_apply, addf_apply, addf_apply, broadcast_apply, matmul_rowsT_apply, matmul_rowsT_apply,
    broadcastTo_1b_ab_apply, shapeCast_self, shapeCast_self, Ideal.ofBits_def, Ideal.ofBits_zero_f32]
  rfl

/-- The second layer's tile at row p, channel q: the same arithmetic. -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = max (((∑ k : Fin 128, x0 (ix2 p k) * x2 (ix2 q k)) + ∑ k : Fin 128, x1 (ix2 p k) * x3 (ix2 q k)) + x4 (ix2 0 q)) 0 := by
  unfold k1_pay1
  rw [maximumf_apply, addf_apply, addf_apply, broadcast_apply, matmul_rowsT_apply, matmul_rowsT_apply,
    broadcastTo_1b_ab_apply, shapeCast_self, shapeCast_self, shapeCast_self, Ideal.ofBits_def, Ideal.ofBits_zero_f32]
  rfl

/-- The first layer's tile is the layer: where the tile's row p is row P of A and X, the matrices' row q is row Q of
    W and W', and the bias entry is b Q, the tile's entry (p, q) is the layer's value at (P, Q). -/
theorem pay0_tile (A X : Cert.Spec.Nodes) (W W' : Cert.Spec.Weights) (b : Fin 128 → EReal)
    (x0 x1 : Vec Ideal S5000x128 .f32) (x2 x3 : Vec Ideal S128x128 .f32) (x4 : Vec Ideal S1x128 .f32)
    (P : Fin 100000) (Q : Fin 128) (p : Fin 5000) (q : Fin 128)
    (h0 : ∀ k : Fin 128, x0 (ix2 p k) = A (ix2 P k)) (h1 : ∀ k : Fin 128, x1 (ix2 p k) = X (ix2 P k))
    (h2 : ∀ k : Fin 128, x2 (ix2 q k) = W (ix2 Q k)) (h3 : ∀ k : Fin 128, x3 (ix2 q k) = W' (ix2 Q k))
    (h4 : x4 (ix2 0 q) = b Q) :
    k0_pay1 (F := Ideal) x0 x1 x2 x3 x4 (ix2 p q) = Cert.Spec.layerAt A X W W' b P Q := by
  have e0 : (∑ k : Fin 128, x0 (ix2 p k) * x2 (ix2 q k)) = ∑ k : Fin 128, A (ix2 P k) * W (ix2 Q k) :=
    Finset.sum_congr rfl fun k _ => by rw [h0 k, h2 k]
  have e1 : (∑ k : Fin 128, x1 (ix2 p k) * x3 (ix2 q k)) = ∑ k : Fin 128, X (ix2 P k) * W' (ix2 Q k) :=
    Finset.sum_congr rfl fun k _ => by rw [h1 k, h3 k]
  rw [pay0_apply, h4, e0, e1]
  rfl

/-- The second layer's tile is the layer, likewise. -/
theorem pay1_tile (A X : Cert.Spec.Nodes) (W W' : Cert.Spec.Weights) (b : Fin 128 → EReal)
    (x0 x1 : Vec Ideal S5000x128 .f32) (x2 x3 : Vec Ideal S128x128 .f32) (x4 : Vec Ideal S1x128 .f32)
    (P : Fin 100000) (Q : Fin 128) (p : Fin 5000) (q : Fin 128)
    (h0 : ∀ k : Fin 128, x0 (ix2 p k) = A (ix2 P k)) (h1 : ∀ k : Fin 128, x1 (ix2 p k) = X (ix2 P k))
    (h2 : ∀ k : Fin 128, x2 (ix2 q k) = W (ix2 Q k)) (h3 : ∀ k : Fin 128, x3 (ix2 q k) = W' (ix2 Q k))
    (h4 : x4 (ix2 0 q) = b Q) :
    k1_pay1 (F := Ideal) x0 x1 x2 x3 x4 (ix2 p q) = Cert.Spec.layerAt A X W W' b P Q := by
  have e0 : (∑ k : Fin 128, x0 (ix2 p k) * x2 (ix2 q k)) = ∑ k : Fin 128, A (ix2 P k) * W (ix2 Q k) :=
    Finset.sum_congr rfl fun k _ => by rw [h0 k, h2 k]
  have e1 : (∑ k : Fin 128, x1 (ix2 p k) * x3 (ix2 q k)) = ∑ k : Fin 128, X (ix2 P k) * W' (ix2 Q k) :=
    Finset.sum_congr rfl fun k _ => by rw [h1 k, h3 k]
  rw [pay1_apply, h4, e0, e1]
  rfl

end Cert.KernelIdeal.Val

end
-- ==== Proof.LibUnitZero.lean ====
/-
  Two readings through a whole buffer's own view, at any value type.

  A memref that is a whole buffer, held at the contents that read as X, loaded through the unit-stride rectangle at
  zero offsets of the buffer's own sizes, reads X; and one store through that rectangle, read back through the view,
  is the stored payload, whatever the buffer held before.
-/
import Idealize.ShloMosaic.Lib.Pipeline.FrameBody
import Idealize.ShloMosaic.Lib.Pipeline.Frame
import Idealize.ShloMosaic.Lib.Pipeline.Value

noncomputable section

namespace Idealize.ShloMosaic

open Idealize.SL Idealize.SL.Sem

/-- The rank-2 zero offsets, spelt as a literal vector, are the constant zero function. -/
theorem zeroOff2 : (![0, 0] : Fin 2 → ℕ) = fun _ => 0 := by funext a; fin_cases a <;> rfl
/-- The rank-3 zero offsets likewise. -/
theorem zeroOff3 : (![0, 0, 0] : Fin 3 → ℕ) = fun _ => 0 := by funext a; fin_cases a <;> rfl

namespace View

variable {Val : EltTy → Type} {S : Shape} {e : EltTy} {sig : RefSig} {κ : Kind} {sp : Space}

/-- One store through the whole-shape rectangle at zero offsets, read back through the view: the payload. -/
theorem read_writes_unit_zero [∀ e, Nonempty (Val e)] (v : View sig κ sp S e) (f : v.ty.Contents Val)
    {off : Fin S.rank → Nat} (h : off = fun _ => 0) (inb : ∀ a, off a + S.size a ≤ S.size a) (w : S.Idx → Val e) :
    v.read Val (v.writes Val f [(⟨Rect.unit off S.size inb, w⟩ : Piece Val S e)]) = w := by
  rw [View.read_writes_eq_canon v f _ (fun y => ⟨_, List.mem_singleton_self _, View.mem_set_unit_zero h inb y⟩),
    View.canon_unit_zero h inb]

end View

namespace Memref.IsWhole

variable {Val : EltTy → Type} {S : Shape} {e : EltTy} {sig : RefSig} {κ : Kind} {sp : Space}

/-- A whole memref held at the contents that read as `X`, loaded through the whole-shape rectangle at zero offsets, reads `X`. -/
theorem readAt_unread_unit_zero {m : Memref sig κ sp S e} (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Memref.IsWhole

end Idealize.ShloMosaic

end
-- ==== Proof.IdealValAffine0.lean ====
/-
  The first rectified layer's kernel, as an array: after the run its output array is the layer of the arrays the
  region finds.

  The grid has 20 points; point t stages rows t · 5000 … t · 5000 + 4999 of the neighbourhood sums (main_v13) and
  of the node features (main_arg0), the two weight matrices (main_arg2, main_arg4) and the bias row (main_v14) whole,
  and writes back rows t · 5000 … t · 5000 + 4999 of the output (main_v15). An entry (p, q) of a block sits in its
  array at block index × block size + (p, q), so the tile written at t is the layer's rows of the same numbers; row r
  of the output lies in the tile of point r / 5000, so the 20 tiles cover the array.
-/
import proofs.«115767_j86157043958238_1_alg».proof.Proof.IdealAffine0
import proofs.«115767_j86157043958238_1_alg».proof.Proof.IdealValPayload
import proofs.«115767_j86157043958238_1_alg».proof.Proof.Spec
import proofs.«115767_j86157043958238_1_alg».proof.Proof.LibUnitZero
import Idealize.ShloMosaic.PureOps.Ideal.Laws
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed block-index maps, decided over the 20 grid points: the two row-tiled inputs and the output sit at
    block (t, 0); the two weight matrices and the bias row at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is tile t of the layer of the arrays as the region finds them: entry (p, q) of the tile
    is row t · 5000 + p of the output, and the input tiles hold the same rows of the two node arrays. -/
theorem flushed0_eq (c : Dev nD) (t : Fin cfg0.N) :
    (dat0 (F := Ideal) V c).flushed 5 t
      = ((cfg0.win 5).blk t).view.read (Elt Ideal)
          (Cert.Spec.layer (V c main_v13) (V c main_arg0) (V c main_arg2) (V c main_arg4) (fun q => V c main_v14 (ix2 0 q))) := by
  show (cfg0.win 5).cut (grid0.coords t) ((dat0 (F := Ideal) V c).after 5 t) = _
  rw [after0_5]
  unfold out0_5
  rw [View.canon_unit_zero zeroOff2]
  simp only [View.ld_unit_zero (S := S5000x128) zeroOff2, View.ld_unit_zero (S := S128x128) zeroOff2,
    View.ld_unit_zero (S := S1x128) zeroOff2]
  obtain ⟨e00, e01, e10, e11, e20, e21, e30, e31, e40, e41, e50, e51⟩ := idx_facts0 t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = Cert.Spec.layerAt (V c main_v13) (V c main_arg0) (V c main_arg2) (V c main_arg4) (fun q => V c main_v14 (ix2 0 q))
        ((((cfg0.win 5).blk t).view.emb (ix2 p q)) 0) ((((cfg0.win 5).blk t).view.emb (ix2 p q)) 1)
  refine pay0_tile (V c main_v13) (V c main_arg0) (V c main_arg2) (V c main_arg4) (fun q => V c main_v14 (ix2 0 q))
    (iblk0 V c 0 t) (iblk0 V c 1 t) (iblk0 V c 2 t) (iblk0 V c 3 t) (iblk0 V c 4 t)
    ((((cfg0.win 5).blk t).view.emb (ix2 p q)) 0) ((((cfg0.win 5).blk t).view.emb (ix2 p q)) 1) p q ?_ ?_ ?_ ?_ ?_
  · intro k
    show V c main_v13 (((cfg0.win 0).blk t).view.emb (ix2 p k)) = _
    refine congrArg (V c main_v13) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · intro k
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · intro k
    show V c main_arg2 (((cfg0.win 2).blk t).view.emb (ix2 q k)) = _
    refine congrArg (V c main_arg2) (funext fun a => Fin.ext ?_)
    match a with
    | ⟨0, _⟩ => show win0_2.index t (0 : Fin 2) * 128 + 1 * q.val = win0_5.index t (1 : Fin 2) * 128 + 1 * q.val; omega
    | ⟨1, _⟩ => show win0_2.index t (1 : Fin 2) * 128 + 1 * k.val = k.val; omega
  · intro k
    show V c main_arg4 (((cfg0.win 3).blk t).view.emb (ix2 q k)) = _
    refine congrArg (V c main_arg4) (funext fun a => Fin.ext ?_)
    match a with
    | ⟨0, _⟩ => show win0_3.index t (0 : Fin 2) * 128 + 1 * q.val = win0_5.index t (1 : Fin 2) * 128 + 1 * q.val; omega
    | ⟨1, _⟩ => show win0_3.index t (1 : Fin 2) * 128 + 1 * k.val = k.val; omega
  · show V c main_v14 (((cfg0.win 4).blk t).view.emb (ix2 0 q)) = _
    refine congrArg (V c main_v14) (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- An index of the output array is in point t's block iff, on each axis, its coordinate is in the block's range. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v15).slice (win0_5.rect t)).set ↔ _
  rw [View.set_slice_whole, Rect.mem_set_unit]
  exact Iff.rfl

/-- The tiles cover the array: row r lies in the tile of point r / 5000, and every point writes its tile back. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, e50, e51⟩ := idx_facts0 ⟨(i 0).val / 5000, ht⟩
  have e50' : win0_5.index ⟨(i 0).val / 5000, ht⟩ (0 : Fin 2) = (i 0).val / 5000 := e50
  refine ⟨⟨(i 0).val / 5000, ht⟩, flush0_5 _, ?_⟩
  rw [mem_blk0]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e50']; omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    rw [e51]; omega

/-- After the run the output array is the layer of the arrays as the region finds them: every point writes back its
    tile of the layer, and the tiles cover the array. -/
theorem arr0 (V : (c : Dev nD) → (b : Ref sig .tc) → Buf (Elt Ideal) ((c : Thread nD τ).loc b)) (c : Dev nD) :
    (dat0 (F := Ideal) V c).arrAt 5 cfg0.N
      = Cert.Spec.layer (V c main_v13) (V c main_arg0) (V c main_arg2) (V c main_arg4) (fun q => V c main_v14 (ix2 0 q)) :=
  (dat0 (F := Ideal) V c).arrAt_eq_of_cover 5
    (Cert.Spec.layer (V c main_v13) (V c main_arg0) (V c main_arg2) (V c main_arg4) (fun q => V c main_v14 (ix2 0 q)))
    (fun t _ => flushed0_eq V c t) cover0

end Cert.KernelIdeal.Val

end
-- ==== Proof.IdealValAffine1.lean ====
/-
  The second rectified layer's kernel, as an array: after the run its output array is the layer of the arrays the
  region finds.

  The grid has 20 points; point t stages rows t · 5000 … t · 5000 + 4999 of the neighbourhood sums (main_v25) and
  of the node features (main_v15), the two weight matrices (main_arg5, main_arg7) and the bias row (main_v26) whole,
  and writes back rows t · 5000 … t · 5000 + 4999 of the output (main_v27). An entry (p, q) of a block sits in its
  array at block index × block size + (p, q), so the tile written at t is the layer's rows of the same numbers; row r
  of the output lies in the tile of point r / 5000, so the 20 tiles cover the array.
-/
import proofs.«115767_j86157043958238_1_alg».proof.Proof.IdealAffine1
import proofs.«115767_j86157043958238_1_alg».proof.Proof.IdealValPayload
import proofs.«115767_j86157043958238_1_alg».proof.Proof.Spec
import proofs.«115767_j86157043958238_1_alg».proof.Proof.LibUnitZero
import Idealize.ShloMosaic.PureOps.Ideal.Laws
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed block-index maps, decided over the 20 grid points: the two row-tiled inputs and the output sit at
    block (t, 0); the two weight matrices and the bias row at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is tile t of the layer of the arrays as the region finds them: entry (p, q) of the tile
    is row t · 5000 + p of the output, and the input tiles hold the same rows of the two node arrays. -/
theorem flushed1_eq (c : Dev nD) (t : Fin cfg1.N) :
    (dat1 (F := Ideal) V c).flushed 5 t
      = ((cfg1.win 5).blk t).view.read (Elt Ideal)
          (Cert.Spec.layer (V c main_v25) (V c main_v15) (V c main_arg5) (V c main_arg7) (fun q => V c main_v26 (ix2 0 q))) := by
  show (cfg1.win 5).cut (grid1.coords t) ((dat1 (F := Ideal) V c).after 5 t) = _
  rw [after1_5]
  unfold out1_5
  rw [View.canon_unit_zero zeroOff2]
  simp only [View.ld_unit_zero (S := S5000x128) zeroOff2, View.ld_unit_zero (S := S128x128) zeroOff2,
    View.ld_unit_zero (S := S1x128) zeroOff2]
  obtain ⟨e00, e01, e10, e11, e20, e21, e30, e31, e40, e41, e50, e51⟩ := idx_facts1 t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = Cert.Spec.layerAt (V c main_v25) (V c main_v15) (V c main_arg5) (V c main_arg7) (fun q => V c main_v26 (ix2 0 q))
        ((((cfg1.win 5).blk t).view.emb (ix2 p q)) 0) ((((cfg1.win 5).blk t).view.emb (ix2 p q)) 1)
  refine pay1_tile (V c main_v25) (V c main_v15) (V c main_arg5) (V c main_arg7) (fun q => V c main_v26 (ix2 0 q))
    (iblk1 V c 0 t) (iblk1 V c 1 t) (iblk1 V c 2 t) (iblk1 V c 3 t) (iblk1 V c 4 t)
    ((((cfg1.win 5).blk t).view.emb (ix2 p q)) 0) ((((cfg1.win 5).blk t).view.emb (ix2 p q)) 1) p q ?_ ?_ ?_ ?_ ?_
  · intro k
    show V c main_v25 (((cfg1.win 0).blk t).view.emb (ix2 p k)) = _
    refine congrArg (V c main_v25) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · intro k
    show V c main_v15 (((cfg1.win 1).blk t).view.emb (ix2 p k)) = _
    refine congrArg (V c main_v15) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · intro k
    show V c main_arg5 (((cfg1.win 2).blk t).view.emb (ix2 q k)) = _
    refine congrArg (V c main_arg5) (funext fun a => Fin.ext ?_)
    match a with
    | ⟨0, _⟩ => show win1_2.index t (0 : Fin 2) * 128 + 1 * q.val = win1_5.index t (1 : Fin 2) * 128 + 1 * q.val; omega
    | ⟨1, _⟩ => show win1_2.index t (1 : Fin 2) * 128 + 1 * k.val = k.val; omega
  · intro k
    show V c main_arg7 (((cfg1.win 3).blk t).view.emb (ix2 q k)) = _
    refine congrArg (V c main_arg7) (funext fun a => Fin.ext ?_)
    match a with
    | ⟨0, _⟩ => show win1_3.index t (0 : Fin 2) * 128 + 1 * q.val = win1_5.index t (1 : Fin 2) * 128 + 1 * q.val; omega
    | ⟨1, _⟩ => show win1_3.index t (1 : Fin 2) * 128 + 1 * k.val = k.val; omega
  · show V c main_v26 (((cfg1.win 4).blk t).view.emb (ix2 0 q)) = _
    refine congrArg (V c main_v26) (funext fun a => Fin.ext ?_)
    match a with
    | ⟨0, _⟩ => show win1_4.index t (0 : Fin 2) * 1 + 1 * 0 = 0; omega
    | ⟨1, _⟩ => show win1_4.index t (1 : Fin 2) * 128 + 1 * q.val = win1_5.index t (1 : Fin 2) * 128 + 1 * q.val; omega

/-- An index of the output array is in point t's block iff, on each axis, its coordinate is in the block's range. -/
theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v27).slice (win1_5.rect t)).set ↔ _
  rw [View.set_slice_whole, Rect.mem_set_unit]
  exact Iff.rfl

/-- The tiles cover the array: row r lies in the tile of point r / 5000, and every point writes its tile back. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, -, -, e50, e51⟩ := idx_facts1 ⟨(i 0).val / 5000, ht⟩
  have e50' : win1_5.index ⟨(i 0).val / 5000, ht⟩ (0 : Fin 2) = (i 0).val / 5000 := e50
  refine ⟨⟨(i 0).val / 5000, ht⟩, flush1_5 _, ?_⟩
  rw [mem_blk1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50']; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e51]; omega

/-- After the run the output array is the layer of the arrays as the region finds them: every point writes back its
    tile of the layer, and the tiles cover the array. -/
theorem arr1 (V : (c : Dev nD) → (b : Ref sig .tc) → Buf (Elt Ideal) ((c : Thread nD τ).loc b)) (c : Dev nD) :
    (dat1 (F := Ideal) V c).arrAt 5 cfg1.N
      = Cert.Spec.layer (V c main_v25) (V c main_v15) (V c main_arg5) (V c main_arg7) (fun q => V c main_v26 (ix2 0 q)) :=
  (dat1 (F := Ideal) V c).arrAt_eq_of_cover 5
    (Cert.Spec.layer (V c main_v25) (V c main_v15) (V c main_arg5) (V c main_arg7) (fun q => V c main_v26 (ix2 0 q)))
    (fun t _ => flushed1_eq V c t) cover1

end Cert.KernelIdeal.Val

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.LibColSum.lean ====
/-
  The sum of a column of a rank-2 array, read at the column.

  A kernel's vector reduction by addition of an [a, b] array along its FIRST axis keeps one value per column. Over
  the extended reals addition is exact, so the value at column j is the plain sum over the column's a entries,
  ∑ k, src (k, j), whatever order the hardware adds them in. The index that a column's result j and a coordinate k
  on the reduced axis name together is (k, j).
-/
import Idealize.ShloMosaic.Lib.ValueIdx
import Idealize.ShloMosaic.Lib.Pipeline.Value
import Idealize.ShloMosaic.PureOps.Ideal.Laws
import Idealize.ShloMosaic.PureOps.Reduce

noncomputable section

namespace Cert.ColSum

open Idealize.ShloMosaic Idealize.ShloMosaic.ValueIdx

/-- Column j of the reduced array with coordinate k put back on the reduced (first) axis is the index (k, j). -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A kernel's sum of an [a, b] array along its first axis, at the extended reals, read at column j: the sum of the
    column's a entries. -/
theorem multiReduction_add_col {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact congrArg (fun f => Finset.sum (Finset.univ : Finset (Fin a)) f)
    (funext fun k => congrArg src (lift_col h j k))

end Cert.ColSum

end
-- ==== Proof.IdealPayPool.lean ====
/-
  The pooling kernel's tile arithmetic, entry by entry, over the extended reals.

  At the first grid point the kernel stores a 1 × 1 zero as the running total. At every point it takes a tile of
  5000 rows of the neighbourhood sums (x0) and of the node features (x1), the two one-row weights x2 and x3, the 1 × 1
  bias x4 and the running total acc; it multiplies each tile by the transposed row into a zero accumulator, adds the
  two products, adds the bias repeated down the 5000 rows, sums the 5000 scores along the first axis, lays the sum out
  as a 1 × 1 array and adds it to the running total. Changing the float format does nothing to an extended real, and
  the transposed row at (k, 0) is the row at (0, k), so the new total is
      acc + ∑ᵣ ((∑ₖ x0[r,k]·x2[0,k] + ∑ₖ x1[r,k]·x3[0,k]) + x4[0,0]).
  At the last point the total is multiplied by the named constant that denotes the rational 1/100000.
-/
import proofs.«115767_j86157043958238_1_alg».proof.Proof.Gen.KernelIdeal.Skeleton
import proofs.«115767_j86157043958238_1_alg».proof.Proof.LibDotRows
import proofs.«115767_j86157043958238_1_alg».proof.Proof.LibRowBroadcast
import proofs.«115767_j86157043958238_1_alg».proof.Proof.LibRowCast
import proofs.«115767_j86157043958238_1_alg».proof.Proof.LibColSum
import Idealize.ShloMosaic.PureOps.Ideal.Laws
import Idealize.ShloMosaic.PureOps.IdealRules
import Idealize.ShloMosaic.Lib.Pipeline.Value
import Idealize.ShloMosaic.Lib.ValueIdx

noncomputable section

namespace Cert.KernelIdeal.Val

open Cert.KernelIdeal Cert.KernelIdeal.Gen
open Idealize.ShloMosaic Idealize.ShloMosaic.ValueIdx Idealize.SL.Sem
open Cert.Hand Cert.RowBroadcast Cert.RowCast Cert.ColSum

/-- The transposed weight row at (k, q) is the row at (q, k). -/
theorem transpose_row_apply (w : FVec Ideal S1x128 .bf16) (k : Fin 128) (q : Fin 1) :
    transpose S128x1 [1, 0] w transposes_S1x128_p1_0_S128x1 (ix2 k q) = w (ix2 q k) :=
  transpose_apply [1, 0] w transposes_S1x128_p1_0_S128x1 (ix2 k q) (ix2 q k)
    (fun b => by match b with | ⟨0, _⟩ => rfl | ⟨1, _⟩ => rfl)

/-- A tile of rows times a column, into the zero accumulator, at (p, q): the sum over k of l (p, k) · r (k, q). -/
theorem matmul_col_apply (l : FVec Ideal S5000x128 .bf16) (r : FVec Ideal S128x1 .bf16) (p : Fin 5000) (q : Fin 1) :
    matmul dot_S5000x128_S128x1_S5000x1_1_0_0_1_n_n none l r (constant S5000x1 .f32 0x00000000#32) (ix2 p q)
      = ∑ k : Fin 128, l (ix2 p k) * r (ix2 k q) := by
  refine (Ideal.matmul_constant_zero_apply dot_S5000x128_S128x1_S5000x1_1_0_0_1_n_n none l r (ix2 p q)).trans ?_
  dot_rows dot_S5000x128_S128x1_S5000x1_1_0_0_1_n_n S5000x128 S128x1 128

/-- The same against the transposed row: the sum over k of l (p, k) · w (0, k). -/
theorem matmul_colT_apply (l : FVec Ideal S5000x128 .bf16) (w : FVec Ideal S1x128 .bf16) (p : Fin 5000) (q : Fin 1) :
    matmul dot_S5000x128_S128x1_S5000x1_1_0_0_1_n_n none l (transpose S128x1 [1, 0] w transposes_S1x128_p1_0_S128x1) (constant S5000x1 .f32 0x00000000#32) (ix2 p q)
      = ∑ k : Fin 128, l (ix2 p k) * w (ix2 (0 : Fin 1) k) :=
  (matmul_col_apply l _ p q).trans
    (Finset.sum_congr rfl fun k _ => congrArg (l (ix2 p k) * ·)
      ((transpose_row_apply w k q).trans (congrArg (fun z : Fin 1 => w (ix2 z k)) (Subsingleton.elim q 0))))

/-- The running total starts at zero. -/
theorem poolPay1_apply (u v : Fin 1) : k2_pay1 (F := Ideal) (ix2 u v) = 0 := by
  unfold k2_pay1
  rw [shapeCast_self, broadcast_apply, Ideal.ofBits_def, Ideal.ofBits_zero_f32]

/-- A grid point adds to the running total the sum of its 5000 rows' scores. -/
theorem poolPay2_apply (x0 x1 : Vec Ideal S5000x128 .f32) (x2 x3 : Vec Ideal S1x128 .f32) (x4 acc : Vec Ideal S1x1 .f32)
    (u v : Fin 1) :
    k2_pay2 (F := Ideal) x0 x1 x2 x3 x4 acc (ix2 u v)
      = acc (ix2 u v) + ∑ r : Fin 5000,
          (((∑ k : Fin 128, x0 (ix2 r k) * x2 (ix2 0 k)) + ∑ k : Fin 128, x1 (ix2 r k) * x3 (ix2 0 k)) + x4 (ix2 0 0)) := by
  unfold k2_pay2
  simp only [shapeCast_self]
  rw [addf_apply]
  refine congrArg (fun z => acc (ix2 u v) + z) ?_
  refine (shapeCast_row_apply _ shapeCasts_S1_S1x1 u v).trans ?_
  refine (multiReduction_add_col _ _ reduces_S5000x1_S1 _ _ v).trans ?_
  refine Finset.sum_congr rfl fun r _ => ?_
  rw [addf_apply, addf_apply, matmul_colT_apply, matmul_colT_apply, broadcastTo_1b_ab_apply, Subsingleton.elim v 0]
  rfl

/-- The certificate's table gives the name "inv_100000" the rational 1/100000. -/
theorem inv_count : Named.named (F := Ideal) κ "inv_100000" (φ := .f32) 0x3727C5AC#32 = ((1 / 100000 : ℝ) : EReal) :=
  IdealRules.named_const.ideal_named_scalar _ _ _ _ rfl

/-- The result is the total times 1/100000. -/
theorem poolPay3_apply (a : Vec Ideal S1x1 .f32) (u v : Fin 1) :
    k2_pay3 (F := Ideal) a (ix2 u v) = a (ix2 u v) * ((1 / 100000 : ℝ) : EReal) := by
  unfold k2_pay3
  rw [mulf_apply, broadcast_apply, inv_count]

end Cert.KernelIdeal.Val

end
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.LibChainSum.lean ====
/-
  A running total is a sum. If `g 0 = f 0` and `g (n + 1) = g n + f (n + 1)` for the terms `f` of a finite
  sequence, then `g n` is the sum of the first `n + 1` terms (`chain_eq_sum`): the closed form of an
  accumulator that is reset at the first step and added to at every later one.
-/
import Mathlib.Algebra.BigOperators.Fin

namespace Cert.ChainSum

/-- A running total that starts at the first term and adds one term per step is the sum of the terms so far. -/
theorem chain_eq_sum {M : Type*} [AddCommMonoid M] {N : ℕ} (f : Fin N → M) (g : (n : ℕ) → n < N → M)
    (h0 : ∀ h, g 0 h = f ⟨0, h⟩)
    (hs : ∀ n (h : n + 1 < N), g (n + 1) h = g n (Nat.lt_of_succ_lt h) + f ⟨n + 1, h⟩) :
    ∀ (n : ℕ) (h : n < N), g n h = ∑ i : Fin (n + 1), f ⟨i.val, lt_of_le_of_lt (Nat.le_of_lt_succ i.isLt) h⟩
  | 0, h => by
    rw [h0 h, Fin.sum_univ_one]
    rfl
  | n + 1, h => by
    rw [hs n h, chain_eq_sum f g h0 hs n (Nat.lt_of_succ_lt h)]
    exact (Fin.sum_univ_castSucc
      (fun i : Fin (n + 1 + 1) => f ⟨i.val, lt_of_le_of_lt (Nat.le_of_lt_succ i.isLt) h⟩)).symm

end Cert.ChainSum
-- ==== Proof.IdealValPool.lean ====
/-
  The value of the pooling kernel at the extended reals. Each case's stores read back: the scratch after a point
  holds the running total — the tile's sum of scores added to what it held, or to zero at the first point — and the
  output after the last point holds the total times 1/100000. A tile's rows are the nodes 5000·t … 5000·t + 4999, so
  the totals after the twenty points add up to the sum over all 100000 nodes, and the one block written back — the
  whole 1 × 1 result, at the last point — is the mean score of the specification.
-/
import proofs.«115767_j86157043958238_1_alg».proof.Proof.IdealPool
import proofs.«115767_j86157043958238_1_alg».proof.Proof.IdealPayPool
import proofs.«115767_j86157043958238_1_alg».proof.Proof.Spec
import proofs.«115767_j86157043958238_1_alg».proof.Proof.LibUnitZero
import proofs.«115767_j86157043958238_1_alg».proof.Proof.LibSumSplit
import proofs.«115767_j86157043958238_1_alg».proof.Proof.LibChainSum
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.Tactic Idealize.ShloMosaic.ValueIdx Idealize.SL.Sem
open Idealize.ShloMosaic.Pipeline (Dat)

section Pieces

variable {F : FTy → Type} [FloatOps F] [Named F]

/-! ## What each case's stores leave, as the body's arithmetic of the point's blocks -/

theorem sout2_B_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : ¬cond2_1 i)
    (x0 : Vec F S5000x128 .f32) (x1 : Vec F S5000x128 .f32) (x2 : Vec F S1x128 .f32) (x3 : Vec F S1x128 .f32) (x4 : Vec F S1x1 .f32) (xs0 : Vec F S1x1 .f32) :
    sout2_B_0 c i arg1 harg1 arg2 harg2 arg3 harg3 arg4 harg4 arg5 harg5 arg6 harg6 arg7 harg7 hc0 hc1 x0 x1 x2 x3 x4 xs0 = k2_pay2 x0 x1 x2 x3 x4 xs0 := by
  unfold sout2_B_0
  rw [View.read_writes_eq_canon _ _ _ (scover2_B_0 c i arg1 harg1 arg2 harg2 arg3 harg3 arg4 harg4 arg5 harg5 arg6 harg6 arg7 harg7 hc0 hc1 x0 x1 x2 x3 x4 xs0)]
  unfold kernelRun2_B
  dsimp only
  sl_unfold_words
  rw [View.canon_unit_zero zeroOff2]
  simp only [View.readAt_eq_ld, Memref.IsWhole.read_unread, View.ld_unit_zero (S := S5000x128) zeroOff2, View.ld_unit_zero (S := S1x128) zeroOff2, View.ld_unit_zero (S := S1x1) zeroOff2]

theorem sout2_A_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : cond2_0 i) (hc1 : ¬cond2_1 i)
    (x0 : Vec F S5000x128 .f32) (x1 : Vec F S5000x128 .f32) (x2 : Vec F S1x128 .f32) (x3 : Vec F S1x128 .f32) (x4 : Vec F S1x1 .f32) :
    sout2_A_0 c i arg1 harg1 arg2 harg2 arg3 harg3 arg4 harg4 arg5 harg5 arg6 harg6 arg7 harg7 hc0 hc1 x0 x1 x2 x3 x4 = k2_pay2 x0 x1 x2 x3 x4 (k2_pay1 (F := F)) := by
  unfold sout2_A_0
  rw [View.read_writes_eq_canon _ _ _ (scover2_A_0 c i arg1 harg1 arg2 harg2 arg3 harg3 arg4 harg4 arg5 harg5 arg6 harg6 arg7 harg7 hc0 hc1 x0 x1 x2 x3 x4)]
  unfold kernelRun2_A
  dsimp only
  sl_unfold_words
  rw [View.canon_cons_unit_zero zeroOff2, View.readCov_unit_zero _ zeroOff2]
  simp only [View.readAt_eq_ld, Memref.IsWhole.read_unread, View.ld_unit_zero (S := S5000x128) zeroOff2, View.ld_unit_zero (S := S1x128) zeroOff2, View.ld_unit_zero (S := S1x1) zeroOff2]

theorem sout2_C_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 : Vec F S5000x128 .f32) (x1 : Vec F S5000x128 .f32) (x2 : Vec F S1x128 .f32) (x3 : Vec F S1x128 .f32) (x4 : Vec F S1x1 .f32) (xs0 : Vec F S1x1 .f32) :
    sout2_C_0 c i arg1 harg1 arg2 harg2 arg3 harg3 arg4 harg4 arg5 harg5 arg6 harg6 arg7 harg7 hc0 hc1 x0 x1 x2 x3 x4 xs0 = k2_pay2 x0 x1 x2 x3 x4 xs0 := by
  unfold sout2_C_0
  rw [View.read_writes_eq_canon _ _ _ (scover2_C_0 c i arg1 harg1 arg2 harg2 arg3 harg3 arg4 harg4 arg5 harg5 arg6 harg6 arg7 harg7 hc0 hc1 x0 x1 x2 x3 x4 xs0)]
  unfold kernelRun2_C
  dsimp only
  sl_unfold_words
  rw [View.canon_unit_zero zeroOff2]
  simp only [View.readAt_eq_ld, Memref.IsWhole.read_unread, View.ld_unit_zero (S := S5000x128) zeroOff2, View.ld_unit_zero (S := S1x128) zeroOff2, View.ld_unit_zero (S := S1x1) zeroOff2]

theorem out2_C_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (hc0 : ¬cond2_0 i) (hc1 : cond2_1 i)
    (x0 : Vec F S5000x128 .f32) (x1 : Vec F S5000x128 .f32) (x2 : Vec F S1x128 .f32) (x3 : Vec F S1x128 .f32) (x4 : Vec F S1x1 .f32) (xs0 : Vec F S1x1 .f32) :
    out2_C_5 c i arg1 harg1 arg2 harg2 arg3 harg3 arg4 harg4 arg5 harg5 arg6 harg6 arg7 harg7 hc0 hc1 x0 x1 x2 x3 x4 xs0 = k2_pay3 (k2_pay2 x0 x1 x2 x3 x4 xs0) := by
  unfold out2_C_5
  rw [View.read_writes_eq_canon _ _ _ (cover2_C_5 c i arg1 harg1 arg2 harg2 arg3 harg3 arg4 harg4 arg5 harg5 arg6 harg6 arg7 harg7 hc0 hc1 x0 x1 x2 x3 x4 xs0)]
  unfold kernelRun2_C
  dsimp only
  sl_unfold_words
  rw [View.canon_unit_zero zeroOff2, View.readCov_unit_zero _ zeroOff2]
  simp only [View.readAt_eq_ld, Memref.IsWhole.read_unread, View.ld_unit_zero (S := S5000x128) zeroOff2, View.ld_unit_zero (S := S1x128) zeroOff2, View.ld_unit_zero (S := S1x1) zeroOff2]

end Pieces

/-! ## The scratch and the output after a point, as the body's arithmetic of the point's blocks -/

section Cases

variable {F : FTy → Type} [FloatOps F] [Named F]
variable (V : (c : Dev nD) → (b : Ref sig .tc) → Buf (Elt F) ((c : Thread nD τ).loc b))

/-- After the first point the scratch holds the body's update of a zero total. -/
theorem scratch_first (c : Dev nD) (t : Fin cfg2.N) (h0 : t.val % 20 = 0) (h1 : ¬t.val % 20 = 19) :
    (outsAt2 V c t.val t.isLt).2 = k2_pay2 (iblk2 V c 0 t) (iblk2 V c 1 t) (iblk2 V c 2 t) (iblk2 V c 3 t) (iblk2 V c 4 t) (k2_pay1 (F := F)) := by
  rw [outsAt2_A V c t h0 h1]
  exact sout2_A_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)

/-- After a later point the scratch holds the body's update of what the point before left in it. -/
theorem scratch_later (c : Dev nD) (t : Fin cfg2.N) (h0 : ¬t.val % 20 = 0) :
    (outsAt2 V c t.val t.isLt).2 = k2_pay2 (iblk2 V c 0 t) (iblk2 V c 1 t) (iblk2 V c 2 t) (iblk2 V c 3 t) (iblk2 V c 4 t) (outsAt2 V c (t.val - 1) (Nat.lt_of_le_of_lt (Nat.sub_le _ _) t.isLt)).2 := by
  by_cases h1 : t.val % 20 = 19
  · rw [outsAt2_C V c t h0 h1]
    exact sout2_C_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2
  · rw [outsAt2_B V c t h0 h1]
    exact sout2_B_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2

/-- After the last point the output's buffer holds the scaled total the scratch then holds. -/
theorem out_last (c : Dev nD) (t : Fin cfg2.N) (h0 : ¬t.val % 20 = 0) (h1 : t.val % 20 = 19) :
    (outsAt2 V c t.val t.isLt).1 = k2_pay3 (outsAt2 V c t.val t.isLt).2 := by
  rw [outsAt2_C V c t h0 h1]
  exact (out2_C_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2).trans
    (congrArg k2_pay3 (sout2_C_eq c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2).symm)

end Cases

/-! ## At the extended reals -/

variable (V : (c : Dev nD) → (b : Ref sig .tc) → Buf (Elt Ideal) ((c : Thread nD τ).loc b))

/-- Row r of tile t as a node. -/
abbrev node (t : Fin 20) (r : Fin 5000) : Fin 100000 := Cert.PointDist.tileIdx (by norm_num : 20 * 5000 = 100000) t r

/-- Grid point number t. -/
abbrev pt (t : Fin 20) : Fin cfg2.N := ⟨t.val, lt_of_lt_of_eq t.isLt N_2.symm⟩

/-- The printed block-index maps, decided over the 20 grid points: the two row-tiled inputs sit at block (t, 0); the
    two weight rows, the bias and the output at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The neighbourhood-sums tile at point t is rows 5000·t … of the array. -/
theorem iblk2_0_apply (c : Dev nD) (t : Fin 20) (r : Fin 5000) (k : Fin 128) :
    (iblk2 V c 0 (pt t) : Vec Ideal S5000x128 .f32) (ix2 r k) = (V c main_v37 : S100000x128.Idx → EReal) (ix2 (node t r) k) := by
  obtain ⟨e0, e1, -⟩ := idx_facts2 (pt t)
  have e0' : win2_0.index (pt t) (0 : Fin 2) = t.val := e0
  show V c main_v37 (((cfg2.win 0).blk (pt t)).view.emb (ix2 r k)) = _
  refine congrArg (V c main_v37) (funext fun a => Fin.ext ?_)
  match a with
  | ⟨0, _⟩ => show win2_0.index (pt t) (0 : Fin 2) * 5000 + 1 * r.val = t.val * 5000 + r.val; omega
  | ⟨1, _⟩ => show win2_0.index (pt t) (1 : Fin 2) * 128 + 1 * k.val = k.val; omega

/-- The node-features tile likewise. -/
theorem iblk2_1_apply (c : Dev nD) (t : Fin 20) (r : Fin 5000) (k : Fin 128) :
    (iblk2 V c 1 (pt t) : Vec Ideal S5000x128 .f32) (ix2 r k) = (V c main_v27 : S100000x128.Idx → EReal) (ix2 (node t r) k) := by
  obtain ⟨-, -, e0, e1, -⟩ := idx_facts2 (pt t)
  have e0' : win2_1.index (pt t) (0 : Fin 2) = t.val := e0
  show V c main_v27 (((cfg2.win 1).blk (pt t)).view.emb (ix2 r k)) = _
  refine congrArg (V c main_v27) (funext fun a => Fin.ext ?_)
  match a with
  | ⟨0, _⟩ => show win2_1.index (pt t) (0 : Fin 2) * 5000 + 1 * r.val = t.val * 5000 + r.val; omega
  | ⟨1, _⟩ => show win2_1.index (pt t) (1 : Fin 2) * 128 + 1 * k.val = k.val; omega

/-- The two weight rows and the bias are staged whole. -/
theorem iblk2_2_apply (c : Dev nD) (t : Fin 20) (u : Fin 1) (k : Fin 128) :
    (iblk2 V c 2 (pt t) : Vec Ideal S1x128 .f32) (ix2 u k) = (V c main_arg8 : S1x128.Idx → EReal) (ix2 u k) := by
  obtain ⟨-, -, -, -, e0, e1, -⟩ := idx_facts2 (pt t)
  show V c main_arg8 (((cfg2.win 2).blk (pt t)).view.emb (ix2 u k)) = _
  refine congrArg (V c main_arg8) (funext fun a => Fin.ext ?_)
  match a with
  | ⟨0, _⟩ => show win2_2.index (pt t) (0 : Fin 2) * 1 + 1 * u.val = u.val; omega
  | ⟨1, _⟩ => show win2_2.index (pt t) (1 : Fin 2) * 128 + 1 * k.val = k.val; omega

theorem iblk2_3_apply (c : Dev nD) (t : Fin 20) (u : Fin 1) (k : Fin 128) :
    (iblk2 V c 3 (pt t) : Vec Ideal S1x128 .f32) (ix2 u k) = (V c main_arg10 : S1x128.Idx → EReal) (ix2 u k) := by
  obtain ⟨-, -, -, -, -, -, e0, e1, -⟩ := idx_facts2 (pt t)
  show V c main_arg10 (((cfg2.win 3).blk (pt t)).view.emb (ix2 u k)) = _
  refine congrArg (V c main_arg10) (funext fun a => Fin.ext ?_)
  match a with
  | ⟨0, _⟩ => show win2_3.index (pt t) (0 : Fin 2) * 1 + 1 * u.val = u.val; omega
  | ⟨1, _⟩ => show win2_3.index (pt t) (1 : Fin 2) * 128 + 1 * k.val = k.val; omega

theorem iblk2_4_apply (c : Dev nD) (t : Fin 20) (u v : Fin 1) :
    (iblk2 V c 4 (pt t) : Vec Ideal S1x1 .f32) (ix2 u v) = (V c main_v38 : S1x1.Idx → EReal) (ix2 u v) := by
  obtain ⟨-, -, -, -, -, -, -, -, e0, e1, -⟩ := idx_facts2 (pt t)
  show V c main_v38 (((cfg2.win 4).blk (pt t)).view.emb (ix2 u v)) = _
  refine congrArg (V c main_v38) (funext fun a => Fin.ext ?_)
  match a with
  | ⟨0, _⟩ => show win2_4.index (pt t) (0 : Fin 2) * 1 + 1 * u.val = u.val; omega
  | ⟨1, _⟩ => show win2_4.index (pt t) (1 : Fin 2) * 1 + 1 * v.val = v.val; omega

/-- The sum of the scores of tile t's nodes. -/
def tile (c : Dev nD) (t : Fin 20) : EReal :=
  ∑ r : Fin 5000, Cert.Spec.scoreAt (V c main_v37) (V c main_v27) (V c main_arg8) (V c main_arg10) (V c main_v38 (ix2 0 0)) (node t r)

/-- The body's update of the total, on point t's blocks: the tile's sum is added. -/
theorem pay2_blocks (c : Dev nD) (t : Fin 20) (acc : Vec Ideal S1x1 .f32) (u v : Fin 1) :
    k2_pay2 (F := Ideal) (iblk2 V c 0 (pt t)) (iblk2 V c 1 (pt t)) (iblk2 V c 2 (pt t)) (iblk2 V c 3 (pt t)) (iblk2 V c 4 (pt t)) acc (ix2 u v)
      = acc (ix2 u v) + tile V c t := by
  refine (poolPay2_apply (iblk2 V c 0 (pt t)) (iblk2 V c 1 (pt t)) (iblk2 V c 2 (pt t)) (iblk2 V c 3 (pt t)) (iblk2 V c 4 (pt t)) acc u v).trans ?_
  refine congrArg (acc (ix2 u v) + ·) ?_
  unfold tile Cert.Spec.scoreAt
  refine Finset.sum_congr rfl fun r _ => ?_
  exact congrArg₂ (· + ·)
    (congrArg₂ (· + ·)
      (Finset.sum_congr rfl fun k _ => congrArg₂ (· * ·) (iblk2_0_apply V c t r k) (iblk2_2_apply V c t 0 k))
      (Finset.sum_congr rfl fun k _ => congrArg₂ (· * ·) (iblk2_1_apply V c t r k) (iblk2_3_apply V c t 0 k)))
    (iblk2_4_apply V c t 0 0)

/-! ## The running total -/

/-- The scratch's one entry after point n. -/
def total (c : Dev nD) (n : ℕ) (hn : n < 20) : EReal :=
  (outsAt2 V c (pt ⟨n, hn⟩).val (pt ⟨n, hn⟩).isLt).2 (ix2 0 0)

/-- After the first point the total is the first tile's sum. -/
theorem total_zero (c : Dev nD) (h : 0 < 20) : total V c 0 h = tile V c ⟨0, h⟩ := by
  unfold total
  rw [scratch_first V c (pt ⟨0, h⟩) (by show (0 : ℕ) % 20 = 0; rfl) (by show ¬(0 : ℕ) % 20 = 19; decide)]
  refine (pay2_blocks V c ⟨0, h⟩ (k2_pay1 (F := Ideal)) 0 0).trans ?_
  rw [poolPay1_apply, zero_add]

/-- Every later point adds its tile's sum. -/
theorem total_succ (c : Dev nD) (n : ℕ) (h : n + 1 < 20) :
    total V c (n + 1) h = total V c n (Nat.lt_of_succ_lt h) + tile V c ⟨n + 1, h⟩ := by
  unfold total
  rw [scratch_later V c (pt ⟨n + 1, h⟩) (by show ¬(n + 1) % 20 = 0; omega)]
  exact pay2_blocks V c ⟨n + 1, h⟩
    (outsAt2 V c ((pt ⟨n + 1, h⟩).val - 1) (Nat.lt_of_le_of_lt (Nat.sub_le _ _) (pt ⟨n + 1, h⟩).isLt)).2 0 0

/-- So after point n the total is the sum of the tiles' sums so far. -/
theorem total_eq_sum (c : Dev nD) (n : ℕ) (h : n < 20) :
    total V c n h = ∑ i : Fin (n + 1), tile V c ⟨i.val, lt_of_le_of_lt (Nat.le_of_lt_succ i.isLt) h⟩ :=
  Cert.ChainSum.chain_eq_sum (fun t : Fin 20 => tile V c t) (fun n hn => total V c n hn)
    (total_zero V c) (total_succ V c) n h

/-- After the last point the total is the sum of the scores of all the nodes: the twenty tiles are the nodes. -/
theorem total_last (c : Dev nD) :
    total V c 19 (by norm_num) = ∑ i : Fin 100000, Cert.Spec.scoreAt (V c main_v37) (V c main_v27) (V c main_arg8) (V c main_arg10) (V c main_v38 (ix2 0 0)) i :=
  (total_eq_sum V c 19 (by norm_num)).trans
    (Cert.PointDist.sum_tiles (by norm_num : 20 * 5000 = 100000)
      (fun i : Fin 100000 => Cert.Spec.scoreAt (V c main_v37) (V c main_v27) (V c main_arg8) (V c main_arg10) (V c main_v38 (ix2 0 0)) i)).symm

/-! ## The output -/

/-- After the last point the output's buffer holds the mean score. -/
theorem out_at_last (c : Dev nD) :
    (outsAt2 V c (pt 19).val (pt 19).isLt).1 = Cert.Spec.pool (V c main_v37) (V c main_v27) (V c main_arg8) (V c main_arg10) (V c main_v38 (ix2 0 0)) := by
  rw [out_last V c (pt 19) (by decide) (by decide)]
  funext j
  obtain ⟨u, v, rfl⟩ : ∃ (u v : Fin 1), j = ix2 u v := ⟨j 0, j 1, eq_ix2 j⟩
  obtain rfl : u = 0 := Subsingleton.elim _ _
  obtain rfl : v = 0 := Subsingleton.elim _ _
  refine (poolPay3_apply (outsAt2 V c (pt 19).val (pt 19).isLt).2 0 0).trans ?_
  unfold Cert.Spec.pool
  exact congrArg (· * ((1 / 100000 : ℝ) : EReal)) (total_last V c)

/-! ## The one write-back, and the array -/

/-- The one block written back — at the last point, the whole 1 × 1 result — is the mean score. -/
theorem flushed2_eq (c : Dev nD) (t : Fin cfg2.N) (hf : (cfg2.win 5).flush t = true) :
    (dat2 (F := Ideal) V c).flushed 5 t
      = ((cfg2.win 5).blk t).view.read (Elt Ideal) (Cert.Spec.pool (V c main_v37) (V c main_v27) (V c main_arg8) (V c main_arg10) (V c main_v38 (ix2 0 0))) := by
  have hN : cfg2.N = 20 := N_2
  have h19 : t.val = 19 := by have := (flush2_5 t).mp hf; have := t.isLt; omega
  obtain rfl : t = pt 19 := Fin.ext h19
  show (cfg2.win 5).cut (grid2.coords (pt 19)) ((dat2 (F := Ideal) V c).after 5 (pt 19)) = _
  rw [after2_5, out_at_last]
  obtain ⟨-, -, -, -, -, -, -, -, -, -, e0, e1⟩ := idx_facts2 (pt 19)
  have hz' : (fun a => win2_5.index (pt 19) a * main_v39.ty.shape.size a) = fun _ => 0 := funext fun a => by
    match a with
    | ⟨0, _⟩ => show win2_5.index (pt 19) (0 : Fin 2) * 1 = 0; omega
    | ⟨1, _⟩ => show win2_5.index (pt 19) (1 : Fin 2) * 1 = 0; omega
  exact (Memref.read_access_unit_zero (Elt Ideal) main_v39 hz' (fun a => by rw [congrFun hz' a]; simp)
    (Cert.Spec.pool (V c main_v37) (V c main_v27) (V c main_arg8) (V c main_arg10) (V c main_v38 (ix2 0 0)))).symm

/-- After the run the result array is the mean score: the last point's block is the whole array. -/
theorem arr2 (V : (c : Dev nD) → (b : Ref sig .tc) → Buf (Elt Ideal) ((c : Thread nD τ).loc b)) (c : Dev nD) :
    (dat2 (F := Ideal) V c).arrAt 5 cfg2.N = Cert.Spec.pool (V c main_v37) (V c main_v27) (V c main_arg8) (V c main_arg10) (V c main_v38 (ix2 0 0)) :=
  (dat2 (F := Ideal) V c).arrAt_eq_of_cover 5 (Cert.Spec.pool (V c main_v37) (V c main_v27) (V c main_arg8) (V c main_arg10) (V c main_v38 (ix2 0 0))) (flushed2_eq V c) fun i =>
    ⟨pt 19, (flush2_5 (pt 19)).mpr (by show (19 : ℕ) % 20 = 19; rfl), by
      show i ∈ ((View.whole main_v39).slice (win2_5.rect (pt 19))).set
      rw [View.set_slice_whole, Rect.mem_set_unit]
      obtain ⟨-, -, -, -, -, -, -, -, -, -, e0, e1⟩ := idx_facts2 (pt 19)
      have h0 : (i 0 : ℕ) < 1 := (i 0).isLt
      have h1 : (i 1 : ℕ) < 1 := (i 1).isLt
      intro a
      match a with
      | ⟨0, _⟩ =>
        show win2_5.index (pt 19) (0 : Fin 2) * 1 ≤ (i 0 : ℕ) ∧ (i 0 : ℕ) < win2_5.index (pt 19) (0 : Fin 2) * 1 + 1
        omega
      | ⟨1, _⟩ =>
        show win2_5.index (pt 19) (1 : Fin 2) * 1 ≤ (i 1 : ℕ) ∧ (i 1 : ℕ) < win2_5.index (pt 19) (1 : Fin 2) * 1 + 1
        omega⟩

end Cert.KernelIdeal.Val

end
-- ==== Proof.RefValue.lean ====
/-
  The reference program's result is the network of Spec.lean over the host's neighbourhood sums.

  The reference spells a layer as  max((A·Wᵀ + b) + X·W'ᵀ, 0):  two products of the node rows with TRANSPOSED weight
  matrices, the bias broadcast down the rows and added before the second product, and a maximum with a zero array.
  Entry (p, q) of a product with a transposed matrix pairs row p of the nodes with row q of the weights, and over the
  extended reals addition is commutative and associative, so moving the bias behind the second product needs no
  finiteness: the layer is Spec.layer. The last layer scores node i as (A·wᵀ + b) + X·w'ᵀ with one-row weights, sums
  the 100000 scores from a zero initial value and divides by the literal 100000; division by a real that is not zero
  is the product with its reciprocal on every extended real, so the result is Spec.pool. The neighbourhood sums (a
  gather along the edge list followed by a scatter-add into zeros) are never opened: they are one function `agg` of
  the edge list and the features, applied three times.
-/
import proofs.«115767_j86157043958238_1_alg».proof.Proof.Gen.ReferenceIdeal.Read
import proofs.«115767_j86157043958238_1_alg».proof.Proof.Spec
import proofs.«115767_j86157043958238_1_alg».proof.Proof.LibDotRows
import Idealize.ShloMosaic.Lib.IdealHost

noncomputable section
namespace Cert.ReferenceIdeal.RefValue
open Cert.ReferenceIdeal Cert.ReferenceIdeal.Gen Idealize.ShloMosaic Idealize.ShloMosaic.TcCoe Idealize.ShloMosaic.ValueIdx Idealize.SL.Sem
open Cert.Hand

/-- The neighbourhood sums of node features h along the edge list e, as the host computes them. -/
def agg (e : (⟨S2x1600000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast _ (extractStridedSlice S1x1600000 ![1, 0] e slices_S2x1600000_S1x1600000_1_0) shapeCasts_S1x1600000_S1600000))
    (Host.gather gather_S100000x128_S1600000x1_S1600000x128_1_0_n_n_0_1_1128 h
      (broadcastInDim S1600000x1 ![0] bcast_S1600000_S1600000x1_0
        (select
          (cmpi .slt (shapeCast _ (extractStridedSlice S1x1600000 ![0, 0] e slices_S2x1600000_S1x1600000_0_0) shapeCasts_S1x1600000_S1600000)
            (broadcastInDim S1600000 ![] bcast_S_S1600000 (constantI S_ 32 0#32)))
          (addi (shapeCast _ (extractStridedSlice S1x1600000 ![0, 0] e slices_S2x1600000_S1x1600000_0_0) shapeCasts_S1x1600000_S1600000)
            (broadcastInDim S1600000 ![] bcast_S_S1600000 (constantI S_ 32 100000#32)))
          (shapeCast _ (extractStridedSlice S1x1600000 ![0, 0] e slices_S2x1600000_S1x1600000_0_0) shapeCasts_S1x1600000_S1600000))))

/-- The reference's result as the network of Spec.lean over the host's neighbourhood sums. -/
def net (e : (⟨S2x1600000, .i32⟩ : BufTy).Contents (Elt Ideal)) (x : Cert.Spec.Nodes) (W1 W1' W2 W2' : Cert.Spec.Weights)
    (b1 b2 : (⟨1, ![128]⟩ : Shape).Idx → EReal) (w3 w3' : Cert.Spec.WRow) (b3 : (⟨1, ![1]⟩ : Shape).Idx → EReal) : Cert.Spec.Out :=
  let h1 := Cert.Spec.layer (agg e x) x W1 W1' (fun q => b1 (ix1 q))
  let h2 := Cert.Spec.layer (agg e h1) h1 W2 W2' (fun q => b2 (ix1 q))
  Cert.Spec.pool (agg e h2) h2 w3 w3' (b3 (ix1 0))

/-! ## The operations of one layer, read at an entry -/

/-- Node rows times a transposed weight matrix: entry (p, q) is the sum over k of row p of the nodes times ROW q of
    the weights. -/
theorem dot_weights_apply (l : FVec Ideal S100000x128 .f32) (W : FVec Ideal S128x128 .f32) (p : Fin 100000) (q : Fin 128) :
    Host.dotGeneral (F := Ideal) dot_S100000x128_S128x128_S100000x128_1_0_0_1_n_n none l (transpose S128x128 [1, 0] W transposes_S128x128_S128x128_1_0) (ix2 p q)
      = ∑ k : Fin 128, l (ix2 p k) * W (ix2 q k) := by
  generalize hr : transpose S128x128 [1, 0] W transposes_S128x128_S128x128_1_0 = r
  have hT : ∀ k : Fin 128, r (ix2 k q) = W (ix2 q k) := fun k => by
    rw [← hr]
    exact transpose_apply [1, 0] W transposes_S128x128_S128x128_1_0 (ix2 k q) (ix2 q k) (fun b => match b with
      | ⟨0, _⟩ => rfl
      | ⟨1, _⟩ => rfl)
  simp only [Host.dotGeneral]
  rw [Ideal.dotGeneral_apply]
  have hs : ∑ c, l (dot_S100000x128_S128x128_S100000x128_1_0_0_1_n_n.lhsIdx (ix2 p q) c) * r (dot_S100000x128_S128x128_S100000x128_1_0_0_1_n_n.rhsIdx (ix2 p q) c)
      = ∑ k : Fin 128, l (ix2 p k) * r (ix2 k q) := by
    dot_rows dot_S100000x128_S128x128_S100000x128_1_0_0_1_n_n S100000x128 S128x128 128
  rw [hs]
  exact Finset.sum_congr rfl fun k _ => by rw [hT k]

/-- A bias vector laid out as a row and repeated down the 100000 rows reads, at (p, q), its entry q. -/
theorem bias_rows_apply (b : FVec Ideal S128 .f32) (p : Fin 100000) (q : Fin 128) :
    broadcastInDim S100000x128 ![0, 1] bcast_S1x128_S100000x128_0_1 (broadcastInDim S1x128 ![1] bcast_S128_S1x128_1 b) (ix2 p q)
      = b (ix1 q) := by
  generalize hy : broadcastInDim S1x128 ![1] bcast_S128_S1x128_1 b = y
  refine (broadcastInDim_apply _ bcast_S1x128_S100000x128_0_1 y (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  rw [← hy]
  exact broadcastInDim_apply _ bcast_S128_S1x128_1 b (ix2 (0 : Fin 1) q) (ix1 q) (fun a => match a with
    | ⟨0, _⟩ => by show q.val = if (128 : Nat) = 1 then 0 else q.val; rw [if_neg (by decide)])

/-- The array of zeros the rectifier compares with reads the extended real zero everywhere. -/
theorem zeros_apply (i : S100000x128.Idx) :
    broadcastInDim S100000x128 ![] bcast_S_S100000x128 (constant (F := Ideal) S_ .f32 0x00000000#32) i = 0 :=
  (broadcastInDim_scalar_apply bcast_S_S100000x128 _ i).trans Ideal.ofBits_zero_f32

/-- One layer as the reference spells it: the neighbourhood product, plus the bias, plus the root product, rectified. -/
def refLayer (A X : FVec Ideal S100000x128 .f32) (W W' : FVec Ideal S128x128 .f32) (b : FVec Ideal S128 .f32) :
    FVec Ideal S100000x128 .f32 :=
  maximumf
    (addf
      (addf (Host.dotGeneral (F := Ideal) dot_S100000x128_S128x128_S100000x128_1_0_0_1_n_n none A (transpose S128x128 [1, 0] W transposes_S128x128_S128x128_1_0))
        (broadcastInDim S100000x128 ![0, 1] bcast_S1x128_S100000x128_0_1 (broadcastInDim S1x128 ![1] bcast_S128_S1x128_1 b)))
      (Host.dotGeneral (F := Ideal) dot_S100000x128_S128x128_S100000x128_1_0_0_1_n_n none X (transpose S128x128 [1, 0] W' transposes_S128x128_S128x128_1_0)))
    (broadcastInDim S100000x128 ![] bcast_S_S100000x128 (constant (F := Ideal) S_ .f32 0x00000000#32))

/-- The reference's layer is the specification's: (A·Wᵀ + b) + X·W'ᵀ = (A·Wᵀ + X·W'ᵀ) + b entry by entry. -/
theorem refLayer_eq (A X : FVec Ideal S100000x128 .f32) (W W' : FVec Ideal S128x128 .f32) (b : FVec Ideal S128 .f32) :
    refLayer A X W W' b = Cert.Spec.layer A X W W' (fun q => b (ix1 q)) := by
  funext i
  obtain ⟨p, q, rfl⟩ : ∃ (p : Fin 100000) (q : Fin 128), i = ix2 p q := ⟨i 0, i 1, eq_ix2 i⟩
  rw [Cert.Spec.layer_apply]
  unfold refLayer Cert.Spec.layerAt
  rw [maximumf_apply, addf_apply, addf_apply, dot_weights_apply, dot_weights_apply, bias_rows_apply, zeros_apply,
    add_right_comm]

/-! ## The operations of the last layer, read at an entry -/

/-- Node rows times a transposed one-row weight: entry (p, 0) is the sum over k of row p of the nodes times the row. -/
theorem dot_row_apply (l : FVec Ideal S100000x128 .f32) (w : FVec Ideal S1x128 .f32) (p : Fin 100000) (q : Fin 1) :
    Host.dotGeneral (F := Ideal) dot_S100000x128_S128x1_S100000x1_1_0_0_1_n_n none l (transpose S128x1 [1, 0] w transposes_S1x128_S128x1_1_0) (ix2 p q)
      = ∑ k : Fin 128, l (ix2 p k) * w (ix2 (0 : Fin 1) k) := by
  generalize hr : transpose S128x1 [1, 0] w transposes_S1x128_S128x1_1_0 = r
  have hT : ∀ k : Fin 128, r (ix2 k q) = w (ix2 (0 : Fin 1) k) := fun k => by
    rw [← hr, Subsingleton.elim (0 : Fin 1) q]
    exact transpose_apply [1, 0] w transposes_S1x128_S128x1_1_0 (ix2 k q) (ix2 q k) (fun b => match b with
      | ⟨0, _⟩ => rfl
      | ⟨1, _⟩ => rfl)
  simp only [Host.dotGeneral]
  rw [Ideal.dotGeneral_apply]
  have hs : ∑ c, l (dot_S100000x128_S128x1_S100000x1_1_0_0_1_n_n.lhsIdx (ix2 p q) c) * r (dot_S100000x128_S128x1_S100000x1_1_0_0_1_n_n.rhsIdx (ix2 p q) c)
      = ∑ k : Fin 128, l (ix2 p k) * r (ix2 k q) := by
    dot_rows dot_S100000x128_S128x1_S100000x1_1_0_0_1_n_n S100000x128 S128x1 128
  rw [hs]
  exact Finset.sum_congr rfl fun k _ => by rw [hT k]

/-- A one-entry vector laid out as a 1 × 1 array reads its entry. -/
theorem one_to_row_apply {α : Type} (s : S1.Idx → α) (u v : Fin 1) :
    broadcastInDim S1x1 ![1] bcast_S1_S1x1_1 s (ix2 u v) = s (ix1 (0 : Fin 1)) :=
  broadcastInDim_apply _ bcast_S1_S1x1_1 s (ix2 u v) (ix1 (0 : Fin 1)) (fun a => match a with
    | ⟨0, _⟩ => by show 0 = if (1 : Nat) = 1 then 0 else v.val; rw [if_pos rfl])

/-- The last layer's bias repeated down the 100000 rows reads its one entry everywhere. -/
theorem bias_one_apply (b : FVec Ideal S1 .f32) (p : Fin 100000) (q : Fin 1) :
    broadcastInDim S100000x1 ![0, 1] bcast_S1x1_S100000x1_0_1 (broadcastInDim S1x1 ![1] bcast_S1_S1x1_1 b) (ix2 p q)
      = b (ix1 (0 : Fin 1)) := by
  generalize hy : broadcastInDim S1x1 ![1] bcast_S1_S1x1_1 b = y
  refine (broadcastInDim_apply _ bcast_S1x1_S100000x1_0_1 y (ix2 p q) (ix2 (0 : Fin 1) (0 : Fin 1)) (fun a => match a with
    | ⟨0, _⟩ => by show 0 = if (1 : Nat) = 1 then 0 else p.val; rw [if_pos rfl]
    | ⟨1, _⟩ => by show 0 = if (1 : Nat) = 1 then 0 else q.val; rw [if_pos rfl])).trans ?_
  rw [← hy]
  exact one_to_row_apply b 0 0

/-- The host's sum of a 100000 × 1 column from the zero initial value is the plain sum of its entries. -/
theorem sum_nodes_apply (Y : FVec Ideal S100000x1 .f32) (u : Fin 1) :
    Host.reduceAdd (F := Ideal) Y (constant (F := Ideal) S_ .f32 0x00000000#32) reducesTo_S100000x1_S1_d0 h_S_ (ix1 u)
      = ∑ i : Fin 100000, Y (ix2 i u) := by
  rw [hostReduceAdd_apply, Ideal.hostReduceAdd_single reducesTo_S100000x1_S1_d0 (by decide)]
  rw [show constant (F := Ideal) S_ .f32 0x00000000#32 (Shape.Idx.first h_S_) = (0 : EReal) from Ideal.ofBits_zero_f32,
    zero_add]
  refine Finset.sum_congr rfl fun k _ => ?_
  exact congrArg Y (funext fun a => Fin.ext (by match a with | ⟨0, _⟩ => rfl | ⟨1, _⟩ => rfl))

/-- The word 0x47C35000 is the real 100000: exponent field 143, significand 2^23 + 4411392 = 12800000, times 2^(143-127-23). -/
theorem ofBits_100000 : Ideal.ofBits .f32 0x47C35000#32 = ((100000 : ℝ) : EReal) := by
  simp [Ideal.ofBits, Ideal.ieee, -EReal.coe_mul]; norm_num

/-- The divisor array reads the real 100000 everywhere. -/
theorem count_apply (i : S1x1.Idx) :
    broadcastInDim S1x1 ![] bcast_S_S1x1 (constant (F := Ideal) S_ .f32 0x47C35000#32) i = ((100000 : ℝ) : EReal) :=
  (broadcastInDim_scalar_apply bcast_S_S1x1 _ i).trans ofBits_100000

/-- The last layer's scores as the reference spells them: the neighbourhood product, plus the bias, plus the root product. -/
def refScore (A X : FVec Ideal S100000x128 .f32) (w w' : FVec Ideal S1x128 .f32) (b : FVec Ideal S1 .f32) : FVec Ideal S100000x1 .f32 :=
  addf
    (addf (Host.dotGeneral (F := Ideal) dot_S100000x128_S128x1_S100000x1_1_0_0_1_n_n none A (transpose S128x1 [1, 0] w transposes_S1x128_S128x1_1_0))
      (broadcastInDim S100000x1 ![0, 1] bcast_S1x1_S100000x1_0_1 (broadcastInDim S1x1 ![1] bcast_S1_S1x1_1 b)))
    (Host.dotGeneral (F := Ideal) dot_S100000x128_S128x1_S100000x1_1_0_0_1_n_n none X (transpose S128x1 [1, 0] w' transposes_S1x128_S128x1_1_0))

/-- The reference's score of node p is the specification's: (A·wᵀ + b) + X·w'ᵀ = (A·wᵀ + X·w'ᵀ) + b. -/
theorem refScore_apply (A X : FVec Ideal S100000x128 .f32) (w w' : FVec Ideal S1x128 .f32) (b : FVec Ideal S1 .f32)
    (p : Fin 100000) (q : Fin 1) :
    refScore A X w w' b (ix2 p q) = Cert.Spec.scoreAt A X w w' (b (ix1 (0 : Fin 1))) p := by
  unfold refScore Cert.Spec.scoreAt
  rw [addf_apply, addf_apply, dot_row_apply, dot_row_apply, bias_one_apply, add_right_comm]

/-- The mean as the reference spells it: the scores summed from zero, laid out as a 1 × 1 array, divided by 100000. -/
def refPool (A X : FVec Ideal S100000x128 .f32) (w w' : FVec Ideal S1x128 .f32) (b : FVec Ideal S1 .f32) : FVec Ideal S1x1 .f32 :=
  Host.divf
    (broadcastInDim S1x1 ![1] bcast_S1_S1x1_1
      (Host.reduceAdd (F := Ideal) (refScore A X w w' b) (constant (F := Ideal) S_ .f32 0x00000000#32) reducesTo_S100000x1_S1_d0 h_S_))
    (broadcastInDim S1x1 ![] bcast_S_S1x1 (constant (F := Ideal) S_ .f32 0x47C35000#32))

/-- The reference's last stages are the specification's mean score: the sum of the scores divided by 100000 is the sum
    times 1/100000. -/
theorem refPool_eq (A X : FVec Ideal S100000x128 .f32) (w w' : FVec Ideal S1x128 .f32) (b : FVec Ideal S1 .f32) :
    refPool A X w w' b = Cert.Spec.pool A X w w' (b (ix1 (0 : Fin 1))) := by
  funext i
  obtain ⟨u, v, rfl⟩ : ∃ (u v : Fin 1), i = ix2 u v := ⟨i 0, i 1, eq_ix2 i⟩
  unfold refPool Cert.Spec.pool
  rw [hostDivf_apply, one_to_row_apply, sum_nodes_apply, count_apply, Ideal.div_coe (by norm_num : (100000 : ℝ) ≠ 0)]
  simp only [refScore_apply]

/-! ## The program's stages are these functions -/

section Stages
variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S1x128, .f32⟩ : BufTy).Contents (Elt Ideal))
  (x9 : (⟨S1, .f32⟩ : BufTy).Contents (Elt Ideal)) (x10 : (⟨S1x128, .f32⟩ : BufTy).Contents (Elt Ideal))

/-- The first layer's output: the reference's layer of the input features and their neighbourhood sums. -/
theorem layer1_eq : Read.val_main_v22 (F := Ideal) x0 x1 x2 x3 x4 = refLayer (agg x1 x0) x0 x2 x4 x3 := rfl

/-- The second layer's output: the same layer of the first layer's output. -/
theorem layer2_eq : Read.val_main_v41 (F := Ideal) x0 x1 x2 x3 x4 x5 x6 x7
    = refLayer (agg x1 (Read.val_main_v22 (F := Ideal) x0 x1 x2 x3 x4)) (Read.val_main_v22 (F := Ideal) x0 x1 x2 x3 x4) x5 x7 x6 := rfl

/-- The result: the last layer and the mean of the second layer's output. -/
theorem pool_eq : Read.val_main_v63 (F := Ideal) x0 x1 x2 x3 x4 x5 x6 x7 x8 x9 x10
    = refPool (agg x1 (Read.val_main_v41 (F := Ideal) x0 x1 x2 x3 x4 x5 x6 x7)) (Read.val_main_v41 (F := Ideal) x0 x1 x2 x3 x4 x5 x6 x7) x8 x10 x9 := rfl

/-- The last stage is the network. -/
theorem stages_eq : Read.val_main_v63 (F := Ideal) x0 x1 x2 x3 x4 x5 x6 x7 x8 x9 x10 = net x1 x0 x2 x4 x5 x7 x3 x6 x8 x10 x9 := by
  rw [pool_eq, refPool_eq, layer2_eq, refLayer_eq, layer1_eq, refLayer_eq]
  rfl

end Stages

theorem result_eq (m : (ℓ : Loc nD τ sig) → Buf (Elt Ideal) ℓ) (c : Dev nD) :
    Cert.ReferenceIdeal.Value.res_main_v63 (F := Ideal) m c
      = net (m ((c.tc : Thread nD τ).loc main_arg1)) (m ((c.tc : Thread nD τ).loc main_arg0))
          (m ((c.tc : Thread nD τ).loc main_arg2)) (m ((c.tc : Thread nD τ).loc main_arg4))
          (m ((c.tc : Thread nD τ).loc main_arg5)) (m ((c.tc : Thread nD τ).loc main_arg7))
          (m ((c.tc : Thread nD τ).loc main_arg3)) (m ((c.tc : Thread nD τ).loc main_arg6))
          (m ((c.tc : Thread nD τ).loc main_arg8)) (m ((c.tc : Thread nD τ).loc main_arg10))
          (m ((c.tc : Thread nD τ).loc main_arg9)) := by
  rw [Read.val_main_v63_eq]
  exact stages_eq _ _ _ _ _ _ _ _ _ _ _

end Cert.ReferenceIdeal.RefValue
end
-- ==== Proof.IdealValue.lean ====
/-
  The kernel program's result, at the extended reals, as the network of the specification. Walking @main's boundaries:
  the first host stretch leaves the edge list's two index vectors, the neighbourhood sums of the input features and
  the first bias as a row; the first region leaves the first rectified layer of those; the second stretch the
  neighbourhood sums of that layer; the second region the second layer; the third stretch their neighbourhood sums;
  the pooling region the mean score. No stretch and no region writes an array it only reads, so every operand is
  found as the stage that made it left it. The neighbourhood sums are the same host operations in both programs and
  are carried as one function, never opened.
-/
import proofs.«115767_j86157043958238_1_alg».proof.Proof.IdealRun
import proofs.«115767_j86157043958238_1_alg».proof.Proof.IdealValAffine0
import proofs.«115767_j86157043958238_1_alg».proof.Proof.IdealValAffine1
import proofs.«115767_j86157043958238_1_alg».proof.Proof.IdealValPool
import proofs.«115767_j86157043958238_1_alg».proof.Proof.RefValue
import proofs.«115767_j86157043958238_1_alg».proof.Proof.LibRowCast
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem Idealize.ShloMosaic.StableHlo

/-! ## The host's neighbourhood sums, as one function -/

/-- The edge list's source row as a vector. -/
def srcOf (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000
/-- The edge list's destination row as a vector. -/
def dstOf (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- Rows of h gathered at the (wrapped) source indices s and added into the rows the destination indices d name. -/
def aggOf (s d : (⟨S1600000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select
          (cmpi .slt s (broadcastInDim S1600000 ![] bcast_S_S1600000 (constantI S_ 32 0#32)))
          (addi s (broadcastInDim S1600000 ![] bcast_S_S1600000 (constantI S_ 32 100000#32)))
          s)))

/-- The neighbourhood sums of h along the edge list e. -/
def agg (e : (⟨S2x1600000, .i32⟩ : BufTy).Contents (Elt Ideal)) (h : (⟨S100000x128, .f32⟩ : BufTy).Contents (Elt Ideal)) :
    (⟨S100000x128, .f32⟩ : BufTy).Contents (Elt Ideal) := aggOf (srcOf e) (dstOf e) h

/-- They are the reference's: the same operations, spelt over the other program's names. -/
theorem agg_eq (e : (⟨S2x1600000, .i32⟩ : BufTy).Contents (Elt Ideal)) (h : (⟨S100000x128, .f32⟩ : BufTy).Contents (Elt Ideal)) :
    agg e h = Cert.ReferenceIdeal.RefValue.agg e h := rfl

variable (m : (ℓ : Loc nD τ sig) → Buf (Elt Ideal) ℓ)

/-! ## What the boundaries hold -/

theorem V1_v1 (c : Dev nD) : Fr.V1 m c main_v1 = srcOf (m ((c.tc : Thread nD τ).loc main_arg1)) := by
  show StableHlo.after hostOps0 (W0 m c) (Proc.devRef .tc main_v1) = _
  after_results; rfl
theorem V1_v3 (c : Dev nD) : Fr.V1 m c main_v3 = dstOf (m ((c.tc : Thread nD τ).loc main_arg1)) := by
  show StableHlo.after hostOps0 (W0 m c) (Proc.devRef .tc main_v3) = _
  after_results; rfl
theorem V1_v13 (c : Dev nD) : Fr.V1 m c main_v13 = agg (m ((c.tc : Thread nD τ).loc main_arg1)) (m ((c.tc : Thread nD τ).loc main_arg0)) := by
  show StableHlo.after hostOps0 (W0 m c) (Proc.devRef .tc main_v13) = _
  after_results; rfl
theorem V1_v14 (c : Dev nD) : Fr.V1 m c main_v14 = shapeCast S1x128 (m ((c.tc : Thread nD τ).loc main_arg3)) shapeCasts_S128_S1x128 := by
  show StableHlo.after hostOps0 (W0 m c) (Proc.devRef .tc main_v14) = _
  after_results; rfl
theorem V3_v25 (c : Dev nD) : Fr.V3 m c main_v25 = aggOf (Fr.V2 m c main_v1) (Fr.V2 m c main_v3) (Fr.V2 m c main_v15) := by
  show StableHlo.after hostOps1 (W2 m c) (Proc.devRef .tc main_v25) = _
  after_results; rfl
theorem V3_v26 (c : Dev nD) : Fr.V3 m c main_v26 = shapeCast S1x128 (Fr.V2 m c main_arg6) shapeCasts_S128_S1x128 := by
  show StableHlo.after hostOps1 (W2 m c) (Proc.devRef .tc main_v26) = _
  after_results; rfl
theorem V5_v37 (c : Dev nD) : Fr.V5 m c main_v37 = aggOf (Fr.V4 m c main_v1) (Fr.V4 m c main_v3) (Fr.V4 m c main_v27) := by
  show StableHlo.after hostOps2 (W4 m c) (Proc.devRef .tc main_v37) = _
  after_results; rfl
theorem V5_v38 (c : Dev nD) : Fr.V5 m c main_v38 = shapeCast S1x1 (Fr.V4 m c main_arg9) shapeCasts_S1_S1x1 := by
  show StableHlo.after hostOps2 (W4 m c) (Proc.devRef .tc main_v38) = _
  after_results; rfl

/-! ## What is kept from boundary to boundary -/

theorem V1_keep (c : Dev nD) (r : Ref sig .tc) (h0 : r ∉ hostOps0_W) : Fr.V1 m c r = m ((c : Thread nD τ).loc r) :=
  StableHlo.after_of_writes_sub hostOps0 _ hostOps0_writes h0
theorem V2_keep (c : Dev nD) (r : Ref sig .tc) (n0 : r ≠ main_v15) : Fr.V2 m c r = Fr.V1 m c r := W2_keep m c r n0
theorem V3_keep (c : Dev nD) (r : Ref sig .tc) (h1 : r ∉ hostOps1_W) : Fr.V3 m c r = Fr.V2 m c r :=
  StableHlo.after_of_writes_sub hostOps1 _ hostOps1_writes h1
theorem V4_keep (c : Dev nD) (r : Ref sig .tc) (n1 : r ≠ main_v27) : Fr.V4 m c r = Fr.V3 m c r := W4_keep m c r n1
theorem V5_keep (c : Dev nD) (r : Ref sig .tc) (h2 : r ∉ hostOps2_W) : Fr.V5 m c r = Fr.V4 m c r :=
  StableHlo.after_of_writes_sub hostOps2 _ hostOps2_writes h2

/-! ## The result -/

/-- The network over the host's neighbourhood sums. -/
def net (e : (⟨S2x1600000, .i32⟩ : BufTy).Contents (Elt Ideal)) (x : Cert.Spec.Nodes) (W1 W1' W2 W2' : Cert.Spec.Weights)
    (b1 b2 : (⟨1, ![128]⟩ : Shape).Idx → EReal) (w3 w3' : Cert.Spec.WRow) (b3 : (⟨1, ![1]⟩ : Shape).Idx → EReal) : Cert.Spec.Out :=
  let h1 := Cert.Spec.layer (agg e x) x W1 W1' (fun q => b1 (ix1 q))
  let h2 := Cert.Spec.layer (agg e h1) h1 W2 W2' (fun q => b2 (ix1 q))
  Cert.Spec.pool (agg e h2) h2 w3 w3' (b3 (ix1 0))

/-- It is the reference's network. -/
theorem net_eq : net = Cert.ReferenceIdeal.RefValue.net := rfl

/-- What region 0 leaves: the first rectified layer. -/
theorem V2_v15 (c : Dev nD) :
    Fr.V2 m c main_v15 = Cert.Spec.layer (agg (m ((c.tc : Thread nD τ).loc main_arg1)) (m ((c.tc : Thread nD τ).loc main_arg0))) (m ((c.tc : Thread nD τ).loc main_arg0))
      (m ((c.tc : Thread nD τ).loc main_arg2)) (m ((c.tc : Thread nD τ).loc main_arg4)) (fun q => m ((c.tc : Thread nD τ).loc main_arg3) (ix1 q)) := by
  refine (W2_arr m c 5).trans ((arr0 (Fr.V1 m) c).trans ?_)
  rw [V1_v13, V1_keep m c main_arg0 (by decide), V1_keep m c main_arg2 (by decide), V1_keep m c main_arg4 (by decide), V1_v14]
  refine congrArg _ (funext fun q => ?_)
  exact Cert.RowCast.shapeCast_row_apply _ _ 0 q

/-- What region 1 leaves: the second rectified layer. -/
theorem V4_v27 (c : Dev nD) :
    Fr.V4 m c main_v27 = (Cert.Spec.layer (agg (m ((c.tc : Thread nD τ).loc main_arg1)) (Cert.Spec.layer (agg (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg4)) (fun q => (m ((c.tc : Thread nD τ).loc main_arg3)) (ix1 q)))) (Cert.Spec.layer (agg (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg4)) (fun q => (m ((c.tc : Thread nD τ).loc main_arg3)) (ix1 q))) (m ((c.tc : Thread nD τ).loc main_arg5)) (m ((c.tc : Thread nD τ).loc main_arg7)) (fun q => (m ((c.tc : Thread nD τ).loc main_arg6)) (ix1 q))) := by
  refine (W4_arr m c 5).trans ((arr1 (Fr.V3 m) c).trans ?_)
  rw [V3_v25, V3_keep m c main_v15 (by decide), V3_v26,
    V2_keep m c main_v1 (by decide), V2_keep m c main_v3 (by decide), V1_v1, V1_v3,
    V3_keep m c main_arg5 (by decide), V2_keep m c main_arg5 (by decide), V1_keep m c main_arg5 (by decide),
    V3_keep m c main_arg7 (by decide), V2_keep m c main_arg7 (by decide), V1_keep m c main_arg7 (by decide),
    V2_keep m c main_arg6 (by decide), V1_keep m c main_arg6 (by decide), V2_v15]
  refine congrArg _ (funext fun q => ?_)
  exact Cert.RowCast.shapeCast_row_apply _ _ 0 q

/-- The mean score depends on its operands only. -/
theorem pool_congr {A A' X X' : Cert.Spec.Nodes} {w w2 w' w2' : Cert.Spec.WRow} {b b' : EReal} (hA : A = A') (hX : X = X')
    (hw : w = w2) (hw' : w' = w2') (hb : b = b') : Cert.Spec.pool A X w w' b = Cert.Spec.pool A' X' w2 w2' b' := by
  subst hA hX hw hw' hb; rfl

/-- What the pooling region leaves: the network's result. -/
theorem V6_v39 (c : Dev nD) :
    Fr.V6 m c main_v39 = net (m ((c.tc : Thread nD τ).loc main_arg1)) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg7)) (m ((c.tc : Thread nD τ).loc main_arg3)) (m ((c.tc : Thread nD τ).loc main_arg6)) (m ((c.tc : Thread nD τ).loc main_arg8)) (m ((c.tc : Thread nD τ).loc main_arg10)) (m ((c.tc : Thread nD τ).loc main_arg9)) := by
  refine (W6_arr m c 5).trans ((arr2 (Fr.V5 m) c).trans ?_)
  have e1 : Fr.V4 m c main_v1 = srcOf (m ((c.tc : Thread nD τ).loc main_arg1)) :=
    (V4_keep m c main_v1 (by decide)).trans ((V3_keep m c main_v1 (by decide)).trans ((V2_keep m c main_v1 (by decide)).trans (V1_v1 m c)))
  have e3 : Fr.V4 m c main_v3 = dstOf (m ((c.tc : Thread nD τ).loc main_arg1)) :=
    (V4_keep m c main_v3 (by decide)).trans ((V3_keep m c main_v3 (by decide)).trans ((V2_keep m c main_v3 (by decide)).trans (V1_v3 m c)))
  have e27 : Fr.V5 m c main_v27 = (Cert.Spec.layer (agg (m ((c.tc : Thread nD τ).loc main_arg1)) (Cert.Spec.layer (agg (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg4)) (fun q => (m ((c.tc : Thread nD τ).loc main_arg3)) (ix1 q)))) (Cert.Spec.layer (agg (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg4)) (fun q => (m ((c.tc : Thread nD τ).loc main_arg3)) (ix1 q))) (m ((c.tc : Thread nD τ).loc main_arg5)) (m ((c.tc : Thread nD τ).loc main_arg7)) (fun q => (m ((c.tc : Thread nD τ).loc main_arg6)) (ix1 q))) := (V5_keep m c main_v27 (by decide)).trans (V4_v27 m c)
  have e37 : Fr.V5 m c main_v37 = agg (m ((c.tc : Thread nD τ).loc main_arg1)) (Cert.Spec.layer (agg (m ((c.tc : Thread nD τ).loc main_arg1)) (Cert.Spec.layer (agg (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg4)) (fun q => (m ((c.tc : Thread nD τ).loc main_arg3)) (ix1 q)))) (Cert.Spec.layer (agg (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg4)) (fun q => (m ((c.tc : Thread nD τ).loc main_arg3)) (ix1 q))) (m ((c.tc : Thread nD τ).loc main_arg5)) (m ((c.tc : Thread nD τ).loc main_arg7)) (fun q => (m ((c.tc : Thread nD τ).loc main_arg6)) (ix1 q))) :=
    (V5_v37 m c).trans (by rw [e1, e3, V4_v27]; rfl)
  have e8 : Fr.V5 m c main_arg8 = (m ((c.tc : Thread nD τ).loc main_arg8)) :=
    (V5_keep m c main_arg8 (by decide)).trans ((V4_keep m c main_arg8 (by decide)).trans ((V3_keep m c main_arg8 (by decide)).trans ((V2_keep m c main_arg8 (by decide)).trans (V1_keep m c main_arg8 (by decide)))))
  have e10 : Fr.V5 m c main_arg10 = (m ((c.tc : Thread nD τ).loc main_arg10)) :=
    (V5_keep m c main_arg10 (by decide)).trans ((V4_keep m c main_arg10 (by decide)).trans ((V3_keep m c main_arg10 (by decide)).trans ((V2_keep m c main_arg10 (by decide)).trans (V1_keep m c main_arg10 (by decide)))))
  have e9 : Fr.V4 m c main_arg9 = (m ((c.tc : Thread nD τ).loc main_arg9)) :=
    (V4_keep m c main_arg9 (by decide)).trans ((V3_keep m c main_arg9 (by decide)).trans ((V2_keep m c main_arg9 (by decide)).trans (V1_keep m c main_arg9 (by decide))))
  have eb : Fr.V5 m c main_v38 (ix2 0 0) = (m ((c.tc : Thread nD τ).loc main_arg9)) (ix1 0) := by
    rw [V5_v38]
    refine (Cert.RowCast.shapeCast_row_apply _ _ 0 0).trans ?_
    exact congrFun e9 _
  unfold net
  exact pool_congr e37 e27 e8 e10 eb

/-- THE RUN, READ: every weakly fair execution terminates with the result array at the network's value and the
    arguments as launched. -/
theorem run (ρ : Dev nD → PrngReg) : θ_run defs (onTc (τ := τ) (main (F := Ideal))) ⟨m, fun _ => 0, ρ⟩ (fun r => ∀ c : Dev nD,
      r.2.mem ((c.tc : Thread nD τ).loc main_v39) = net (m ((c.tc : Thread nD τ).loc main_arg1)) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg7)) (m ((c.tc : Thread nD τ).loc main_arg3)) (m ((c.tc : Thread nD τ).loc main_arg6)) (m ((c.tc : Thread nD τ).loc main_arg8)) (m ((c.tc : Thread nD τ).loc main_arg10)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_v39 (by decide))).trans (V6_v39 m c),
      (h c _ (mem_uc main_arg0 (by decide))).trans (W6_launch m c main_arg0 (by decide) (by decide) (by decide) (by decide) (by decide) (by decide)),
      (h c _ (mem_uc main_arg1 (by decide))).trans (W6_launch m c main_arg1 (by decide) (by decide) (by decide) (by decide) (by decide) (by decide)),
      (h c _ (mem_uc main_arg2 (by decide))).trans (W6_launch m c main_arg2 (by decide) (by decide) (by decide) (by decide) (by decide) (by decide)),
      (h c _ (mem_uc main_arg3 (by decide))).trans (W6_launch m c main_arg3 (by decide) (by decide) (by decide) (by decide) (by decide) (by decide)),
      (h c _ (mem_uc main_arg4 (by decide))).trans (W6_launch m c main_arg4 (by decide) (by decide) (by decide) (by decide) (by decide) (by decide)),
      (h c _ (mem_uc main_arg5 (by decide))).trans (W6_launch m c main_arg5 (by decide) (by decide) (by decide) (by decide) (by decide) (by decide)),
      (h c _ (mem_uc main_arg6 (by decide))).trans (W6_launch m c main_arg6 (by decide) (by decide) (by decide) (by decide) (by decide) (by decide)),
      (h c _ (mem_uc main_arg7 (by decide))).trans (W6_launch m c main_arg7 (by decide) (by decide) (by decide) (by decide) (by decide) (by decide)),
      (h c _ (mem_uc main_arg8 (by decide))).trans (W6_launch m c main_arg8 (by decide) (by decide) (by decide) (by decide) (by decide) (by decide)),
      (h c _ (mem_uc main_arg9 (by decide))).trans (W6_launch m c main_arg9 (by decide) (by decide) (by decide) (by decide) (by decide) (by decide)),
      (h c _ (mem_uc main_arg10 (by decide))).trans (W6_launch m c main_arg10 (by decide) (by decide) (by decide) (by decide) (by decide) (by decide))⟩)
    (run_all m ρ)

end Cert.KernelIdeal.Val

end
-- ==== Proof.lean ====
/-
  The certificate of a three-layer graph network: on the host, a gather of neighbour rows and a scatter-add of them
  per layer (the neighbourhood sums); in three kernels, tile by tile over 5000 nodes, max (agg · W_relᵀ + x · W_rootᵀ
  + b, 0) twice and then the mean over the 100000 nodes of the last layer's scores, accumulated in a scratch and
  scaled by the named constant 1/100000. Over the extended reals the kernels' matrix products and the reference's are
  the same sums, a change of float format is the identity, the two orders of adding the bias agree because addition
  of extended reals is commutative and associative, the tile-by-tile total is the whole sum regrouped, and division
  by 100000 is multiplication by 1/100000 on every extended real — no finiteness is needed.
  The frames: each program's run as three host stretches and three kernel regions in turn (the modules …Run), the
  reference's run generated. The values: the kernel's three regions read as the specification's layers
  (IdealValAffine0, IdealValAffine1, IdealValPool), chained through the boundaries (IdealValue); the reference's run
  read as the same network (RefValue).
-/
import proofs.«115767_j86157043958238_1_alg».proof.Defs
import proofs.«115767_j86157043958238_1_alg».proof.Proof.Gen.Kernel
import proofs.«115767_j86157043958238_1_alg».proof.Proof.Gen.KernelIdeal
import proofs.«115767_j86157043958238_1_alg».proof.Proof.Gen.ReferenceIdeal
import proofs.«115767_j86157043958238_1_alg».proof.Proof.Gen.Pre_finite_inputs
import proofs.«115767_j86157043958238_1_alg».proof.Proof.Gen.ReferenceIdeal.Run
import proofs.«115767_j86157043958238_1_alg».proof.Proof.Gen.ReferenceIdeal.Read
import proofs.«115767_j86157043958238_1_alg».proof.Proof.BitsRun
import proofs.«115767_j86157043958238_1_alg».proof.Proof.IdealRun
import proofs.«115767_j86157043958238_1_alg».proof.Proof.IdealValue
import proofs.«115767_j86157043958238_1_alg».proof.Proof.RefValue
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The kernel program as printed runs to the end and leaves its arguments as launched. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- The reference: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the literal that rounds 1/100000 is named, and denotes 1/100000. -/
theorem preserves : Cert.preserves_Kernel_KernelIdeal :=
  IdealRules.named_const.statement Cert.KernelIdeal.κ "inv_100000" .f32 0x3727C5AC#32 ((1 / 100000 : ℝ) : EReal) rfl

/-- Both programs end with the network's value of the same arguments. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, Cert.KernelIdeal.Val.net_eq]
  obtain ⟨a0, a1, a2, a3, a4, a5, a6, a7, a8, a9, a10⟩ := hagree c
  rw [a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
